-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩

class Facts : Prop where
  bcast_S_S512x875 : S_.BroadcastsInDim S512x875 (![] : Fin 0 → Fin S512x875.rank)
  reducesTo_S512x875_S_d0_1 : S512x875.ReducesTo [0, 1] S_
  h_S_ : 0 < S_.numel
  bcast_S_S2408x875 : S_.BroadcastsInDim S2408x875 (![] : Fin 0 → Fin S2408x875.rank)
  reducesTo_S2408x875_S_d0_1 : S2408x875.ReducesTo [0, 1] S_
  bcast_S_S2408 : S_.BroadcastsInDim S2408 (![] : Fin 0 → Fin S2408.rank)
  reducesTo_S2408_S_d0 : S2408.ReducesTo [0] S_
  bcast_S_S1024x2408 : S_.BroadcastsInDim S1024x2408 (![] : Fin 0 → Fin S1024x2408.rank)
  reducesTo_S1024x2408_S_d0_1 : S1024x2408.ReducesTo [0, 1] S_
  bcast_S_S1024 : S_.BroadcastsInDim S1024 (![] : Fin 0 → Fin S1024.rank)
  reducesTo_S1024_S_d0 : S1024.ReducesTo [0] S_
  bcast_S_S206x1024 : S_.BroadcastsInDim S206x1024 (![] : Fin 0 → Fin S206x1024.rank)
  reducesTo_S206x1024_S_d0_1 : S206x1024.ReducesTo [0, 1] S_
  bcast_S_S206 : S_.BroadcastsInDim S206 (![] : Fin 0 → Fin S206.rank)
  reducesTo_S206_S_d0 : S206.ReducesTo [0] S_

variable [Facts]

def fn_part4 {F : FTy → Type} [FloatOps F] (main_arg6 : FVec F S2408 .f32) (main_arg12 : FVec F S1024 .f32) (main_arg14 : FVec F S206 .f32) (main_v63 : IVec S_ 1) (main_v67 : IVec S_ 1) : IVec S_ 1 :=
  let main_v68 : IVec S_ 1 := andi main_v63 main_v67
  let main_v69 : FVec F S206 .f32 := Host.absf main_arg14
  let main_cst_26 : FVec F S_ .f32 := constant S_ .f32 0x7F800000#32
  let main_v70 : FVec F S206 .f32 := broadcastInDim S206 ![] bcast_S_S206 main_cst_26
  let main_v71 : IVec S206 1 := cmpf .olt main_v69 main_v70
  let main_c_27 : IVec S_ 1 := constantI S_ 1 1#1
  let main_v72 : IVec S_ 1 := (fun x v => Host.reduce IntOp.andi x v reducesTo_S206_S_d0 h_S_) main_v71 main_c_27
  let main_v73 : IVec S_ 1 := andi main_v68 main_v72
  let main_cst_28 : FVec F S_ .f32 := constant S_ .f32 0x00000000#32
  let main_v74 : FVec F S2408 .f32 := broadcastInDim S2408 ![] bcast_S_S2408 main_cst_28
  let main_v75 : IVec S2408 1 := cmpf .oge main_arg6 main_v74
  let main_c_29 : IVec S_ 1 := constantI S_ 1 1#1
  let main_v76 : IVec S_ 1 := (fun x v => Host.reduce IntOp.andi x v reducesTo_S2408_S_d0 h_S_) main_v75 main_c_29
  let main_v77 : IVec S_ 1 := andi main_v73 main_v76
  let main_cst_30 : FVec F S_ .f32 := constant S_ .f32 0x00000000#32
  let main_v78 : FVec F S1024 .f32 := broadcastInDim S1024 ![] bcast_S_S1024 main_cst_30
  let main_v79 : IVec S1024 1 := cmpf .oge main_arg12 main_v78
  let main_c_31 : IVec S_ 1 := constantI S_ 1 1#1
  let main_v80 : IVec S_ 1 := (fun x v => Host.reduce IntOp.andi x v reducesTo_S1024_S_d0 h_S_) main_v79 main_c_31
  let main_v81 : IVec S_ 1 := andi main_v77 main_v80
  main_v81

def fn_part3 {F : FTy → Type} [FloatOps F] (main_arg6 : FVec F S2408 .f32) (main_arg11 : FVec F S1024 .f32) (main_arg12 : FVec F S1024 .f32) (main_arg13 : FVec F S206x1024 .f32) (main_arg14 : FVec F S206 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S206x1024 .f32 := Host.absf main_arg13
  let main_cst_24 : FVec F S_ .f32 := constant S_ .f32 0x7F800000#32
  let main_v65 : FVec F S206x1024 .f32 := broadcastInDim S206x1024 ![] bcast_S_S206x1024 main_cst_24
  let main_v66 : IVec S206x1024 1 := cmpf .olt main_v64 main_v65
  let main_c_25 : IVec S_ 1 := constantI S_ 1 1#1
  let main_v67 : IVec S_ 1 := (fun x v => Host.reduce IntOp.andi x v reducesTo_S206x1024_S_d0_1 h_S_) main_v66 main_c_25
  fn_part4 (F := F) main_arg6 main_arg12 main_arg14 main_v63 main_v67

def fn_part2 {F : FTy → Type} [FloatOps F] (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) (main_v33 : IVec S_ 1) : IVec S_ 1 :=
  let main_v34 : FVec F S1024x2408 .f32 := Host.absf main_arg7
  let main_cst_12 : FVec F S_ .f32 := constant S_ .f32 0x7F800000#32
  let main_v35 : FVec F S1024x2408 .f32 := broadcastInDim S1024x2408 ![] bcast_S_S1024x2408 main_cst_12
  let main_v36 : IVec S1024x2408 1 := cmpf .olt main_v34 main_v35
  let main_c_13 : IVec S_ 1 := constantI S_ 1 1#1
  let main_v37 : IVec S_ 1 := (fun x v => Host.reduce IntOp.andi x v reducesTo_S1024x2408_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg6 main_arg11 main_arg12 main_arg13 main_arg14 main_v48 main_v49 main_v50

def fn_part1 {F : FTy → Type} [FloatOps F] (main_arg4 : FVec F S2408 .f32) (main_arg5 : FVec F S2408 .f32) (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) (main_v13 : IVec S_ 1) (main_v16 : IVec S2408 1) : IVec S_ 1 :=
  let main_c_5 : IVec S_ 1 := constantI S_ 1 1#1
  let main_v17 : IVec S_ 1 := (fun x v => Host.reduce IntOp.andi x v reducesTo_S2408_S_d0 h_S_) main_v16 main_c_5
  let main_v18 : IVec S_ 1 := andi main_v13 main_v17
  let main_v19 : FVec F S2408 .f32 := Host.absf main_arg4
  let main_cst_6 : FVec F S_ .f32 := constant S_ .f32 0x7F800000#32
  let main_v20 : FVec F S2408 .f32 := broadcastInDim S2408 ![] bcast_S_S2408 main_cst_6
  let main_v21 : IVec S2408 1 := cmpf .olt main_v19 main_v20
  let main_c_7 : IVec S_ 1 := constantI S_ 1 1#1
  let main_v22 : IVec S_ 1 := (fun x v => Host.reduce IntOp.andi x v reducesTo_S2408_S_d0 h_S_) main_v21 main_c_7
  let main_v23 : IVec S_ 1 := andi main_v18 main_v22
  let main_v24 : FVec F S2408 .f32 := Host.absf main_arg5
  let main_cst_8 : FVec F S_ .f32 := constant S_ .f32 0x7F800000#32
  let main_v25 : FVec F S2408 .f32 := broadcastInDim S2408 ![] bcast_S_S2408 main_cst_8
  let main_v26 : IVec S2408 1 := cmpf .olt main_v24 main_v25
  let main_c_9 : IVec S_ 1 := constantI S_ 1 1#1
  let main_v27 : IVec S_ 1 := (fun x v => Host.reduce IntOp.andi x v reducesTo_S2408_S_d0 h_S_) main_v26 main_c_9
  let main_v28 : IVec S_ 1 := andi main_v23 main_v27
  let main_v29 : FVec F S2408 .f32 := Host.absf main_arg6
  let main_cst_10 : FVec F S_ .f32 := constant S_ .f32 0x7F800000#32
  let main_v30 : FVec F S2408 .f32 := broadcastInDim S2408 ![] bcast_S_S2408 main_cst_10
  let main_v31 : IVec S2408 1 := cmpf .olt main_v29 main_v30
  let main_c_11 : IVec S_ 1 := constantI S_ 1 1#1
  let main_v32 : IVec S_ 1 := (fun x v => Host.reduce IntOp.andi x v reducesTo_S2408_S_d0 h_S_) main_v31 main_c_11
  let main_v33 : IVec S_ 1 := andi main_v28 main_v32
  fn_part2 (F := F) main_arg6 main_arg7 main_arg8 main_arg9 main_arg10 main_arg11 main_arg12 main_arg13 main_arg14 main_v33

def fn {F : FTy → Type} [FloatOps F] (main_arg0 : FVec F S512x875 .f32) (main_arg1 : FVec F S2408x875 .f32) (main_arg2 : FVec F S2408 .f32) (main_arg3 : FVec F S2408 .f32) (main_arg4 : FVec F S2408 .f32) (main_arg5 : FVec F S2408 .f32) (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) : IVec S_ 1 :=
  let main_v0 : FVec F S512x875 .f32 := Host.absf main_arg0
  let main_cst : FVec F S_ .f32 := constant S_ .f32 0x7F800000#32
  let main_v1 : FVec F S512x875 .f32 := broadcastInDim S512x875 ![] bcast_S_S512x875 main_cst
  let main_v2 : IVec S512x875 1 := cmpf .olt main_v0 main_v1
  let main_c : IVec S_ 1 := constantI S_ 1 1#1
  let main_v3 : IVec S_ 1 := (fun x v => Host.reduce IntOp.andi x v reducesTo_S512x875_S_d0_1 h_S_) main_v2 main_c
  let main_v4 : FVec F S2408x875 .f32 := Host.absf main_arg1
  let main_cst_0 : FVec F S_ .f32 := constant S_ .f32 0x7F800000#32
  let main_v5 : FVec F S2408x875 .f32 := broadcastInDim S2408x875 ![] bcast_S_S2408x875 main_cst_0
  let main_v6 : IVec S2408x875 1 := cmpf .olt main_v4 main_v5
  let main_c_1 : IVec S_ 1 := constantI S_ 1 1#1
  let main_v7 : IVec S_ 1 := (fun x v => Host.reduce IntOp.andi x v reducesTo_S2408x875_S_d0_1 h_S_) main_v6 main_c_1
  let main_v8 : IVec S_ 1 := andi main_v3 main_v7
  let main_v9 : FVec F S2408 .f32 := Host.absf main_arg2
  let main_cst_2 : FVec F S_ .f32 := constant S_ .f32 0x7F800000#32
  let main_v10 : FVec F S2408 .f32 := broadcastInDim S2408 ![] bcast_S_S2408 main_cst_2
  let main_v11 : IVec S2408 1 := cmpf .olt main_v9 main_v10
  let main_c_3 : IVec S_ 1 := constantI S_ 1 1#1
  let main_v12 : IVec S_ 1 := (fun x v => Host.reduce IntOp.andi x v reducesTo_S2408_S_d0 h_S_) main_v11 main_c_3
  let main_v13 : IVec S_ 1 := andi main_v8 main_v12
  let main_v14 : FVec F S2408 .f32 := Host.absf main_arg3
  let main_cst_4 : FVec F S_ .f32 := constant S_ .f32 0x7F800000#32
  let main_v15 : FVec F S2408 .f32 := broadcastInDim S2408 ![] bcast_S_S2408 main_cst_4
  let main_v16 : IVec S2408 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩
abbrev S1x2408 : Shape := ⟨2, ![1, 2408]⟩
abbrev S1x1024 : Shape := ⟨2, ![1, 1024]⟩
abbrev S256x1024 : Shape := ⟨2, ![256, 1024]⟩
abbrev S256 : Shape := ⟨1, ![256]⟩
abbrev S1x256 : Shape := ⟨2, ![1, 256]⟩
abbrev S512x256 : Shape := ⟨2, ![512, 256]⟩
abbrev S128x875 : Shape := ⟨2, ![128, 875]⟩
abbrev S128x256 : Shape := ⟨2, ![128, 256]⟩
abbrev S128 : Shape := ⟨1, ![128]⟩
abbrev S128x1 : Shape := ⟨2, ![128, 1]⟩
abbrev S128x2408 : Shape := ⟨2, ![128, 2408]⟩
abbrev S128x1024 : Shape := ⟨2, ![128, 1024]⟩
abbrev S512x206 : Shape := ⟨2, ![512, 206]⟩

abbrev nBuf : Space → Nat
  | .hbm => 49
  | .vmem => 13
  | .smem => 0
  | _ => 0

abbrev bufTy : (tb : Table) → Fin (tcTables nBuf tb) → BufTy
  | .hbm, ⟨0, _⟩ => ⟨S512x875, .f32⟩
  | .hbm, ⟨1, _⟩ => ⟨S2408x875, .f32⟩
  | .hbm, ⟨2, _⟩ => ⟨S2408, .f32⟩
  | .hbm, ⟨3, _⟩ => ⟨S2408, .f32⟩
  | .hbm, ⟨4, _⟩ => ⟨S2408, .f32⟩
  | .hbm, ⟨5, _⟩ => ⟨S2408, .f32⟩
  | .hbm, ⟨6, _⟩ => ⟨S2408, .f32⟩
  | .hbm, ⟨7, _⟩ => ⟨S1024x2408, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S206x1024, .f32⟩
  | .hbm, ⟨14, _⟩ => ⟨S206, .f32⟩
  | .hbm, ⟨15, _⟩ => ⟨S2408x875, .f32⟩
  | .hbm, ⟨16, _⟩ => ⟨S_, .f32⟩
  | .hbm, ⟨17, _⟩ => ⟨S2408, .f32⟩
  | .hbm, ⟨18, _⟩ => ⟨S1x2408, .f32⟩
  | .hbm, ⟨19, _⟩ => ⟨S_, .f32⟩
  | .hbm, ⟨20, _⟩ => ⟨S2408, .f32⟩
  | .hbm, ⟨21, _⟩ => ⟨S2408, .f32⟩
  | .hbm, ⟨22, _⟩ => ⟨S2408, .f32⟩
  | .hbm, ⟨23, _⟩ => ⟨S2408, .f32⟩
  | .hbm, ⟨24, _⟩ => ⟨S2408, .f32⟩
  | .hbm, ⟨25, _⟩ => ⟨S1x2408, .f32⟩
  | .hbm, ⟨26, _⟩ => ⟨S2408, .f32⟩
  | .hbm, ⟨27, _⟩ => ⟨S2408, .f32⟩
  | .hbm, ⟨28, _⟩ => ⟨S1x2408, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S_, .i32⟩
  | .hbm, ⟨41, _⟩ => ⟨S_, .f32⟩
  | .hbm, ⟨42, _⟩ => ⟨S256x1024, .f32⟩
  | .hbm, ⟨43, _⟩ => ⟨S_, .i32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S512x256, .f32⟩
  | .hbm, ⟨48, _⟩ => ⟨S512x206, .f32⟩
  | .local _ .vmem, ⟨0, _⟩ => ⟨S128x875, .f32⟩
  | .local _ .vmem, ⟨1, _⟩ => ⟨S128x875, .f32⟩
  | .local _ .vmem, ⟨2, _⟩ => ⟨S2408x875, .f32⟩
  | .local _ .vmem, ⟨3, _⟩ => ⟨S1x2408, .f32⟩
  | .local _ .vmem, ⟨4, _⟩ => ⟨S1x2408, .f32⟩
  | .local _ .vmem, ⟨5, _⟩ => ⟨S1x2408, .f32⟩
  | .local _ .vmem, ⟨6, _⟩ => ⟨S1024x2408, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S1x256, .f32⟩
  | .local _ .vmem, ⟨11, _⟩ => ⟨S128x256, .f32⟩
  | .local _ .vmem, ⟨12, _⟩ => ⟨S128x256, .f32⟩
  | _, _ => ⟨S512x875, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_call0_v0 : Ref sig .tc := ⟨.hbm, 41, rfl⟩
abbrev main_v22 : Ref sig .tc := ⟨.hbm, 42, rfl⟩
abbrev main_c_2 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x875 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2408x875 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  reducesTo_S2408x875_S2408_d1 : S2408x875.ReducesTo [1] S2408
  h_S_ : 0 < S_.numel
  shapeCasts_S2408_S1x2408 : S2408.ShapeCasts S1x2408
  bcast_S_S2408 : S_.BroadcastsInDim S2408 (![] : Fin 0 → Fin S2408.rank)
  bcast_S_S1024 : S_.BroadcastsInDim S1024 (![] : Fin 0 → Fin S1024.rank)
  shapeCasts_S1024_S1x1024 : S1024.ShapeCasts S1x1024
  pads_S206x1024_S256x1024_0500_000 : S206x1024.Pads (![0, 0] : Fin 2 → Nat) ![50, 0] ![0, 0] S256x1024
  pads_S206_S256_0500 : S206.Pads (![0] : Fin 1 → Nat) ![50] ![0] S256
  shapeCasts_S256_S1x256 : S256.ShapeCasts S1x256
  inb_S128x875_S128x875_0_0 : ∀ a, (![0, 0] : Fin 2 → Nat) a + S128x875.size a ≤ S128x875.size a
  h_S128x875 : 0 < S128x875.numel
  reduces_S128x875_S128 : S128x875.Reduces [1] S128
  shapeCasts_S128_S128x1 : S128.ShapeCasts S128x1
  bitsLt_bf16_f32 : FTy.bits .bf16 < FTy.bits .f32
  inb_S2408x875_S2408x875_0_0 : ∀ a, (![0, 0] : Fin 2 → Nat) a + S2408x875.size a ≤ S2408x875.size a
  h_S2408x875 : 0 < S2408x875.numel
  inb_S1x2408_S1x2408_0_0 : ∀ a, (![0, 0] : Fin 2 → Nat) a + S1x2408.size a ≤ S1x2408.size a
  h_S1x2408 : 0 < S1x2408.numel
  shapeCasts_S1x2408_S1x2408 : S1x2408.ShapeCasts S1x2408
  broadcasts_S128x1_S128x2408 : S128x1.Broadcasts S128x2408
  broadcasts_S1x2408_S128x2408 : S1x2408.Broadcasts S128x2408
  inb_S1024x2408_S1024x2408_0_0 : ∀ a, (![0, 0] : Fin 2 → Nat) a + S1024x2408.size a ≤ S1024x2408.size a
  h_S1024x2408 : 0 < S1024x2408.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  slices_S512x256_S512x206_0_0 : S512x256.Slices ![0, 0] S512x206
  dot_S128x875_S2408x875_S128x2408_1_1_0_0_n_n_wf : DotDims.WF S128x875 S2408x875 S128x2408 [1] [1] [0] [0] [] []
  dot_S128x2408_S1024x2408_S128x1024_1_1_0_0_n_n_wf : DotDims.WF S128x2408 S1024x2408 S128x1024 [1] [1] [0] [0] [] []
  dot_S128x1024_S256x1024_S128x256_1_1_0_0_n_n_wf : DotDims.WF S128x1024 S256x1024 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x875.size a ≤ S512x875.size a
  hwx0_0 : ∀ i : grid0.Coords, EltTy.bits .f32 = 32 ∨ (Rect.block (s := S512x875) S128x875.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2408x875.size a ≤ S2408x875.size a
  hwx0_1 : ∀ i : grid0.Coords, EltTy.bits .f32 = 32 ∨ (Rect.block (s := S2408x875) S2408x875.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2408.size a ≤ S1x2408.size a
  hwx0_2 : ∀ i : grid0.Coords, EltTy.bits .f32 = 32 ∨ (Rect.block (s := S1x2408) S1x2408.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2408.size a ≤ S1x2408.size a
  hwx0_3 : ∀ i : grid0.Coords, EltTy.bits .f32 = 32 ∨ (Rect.block (s := S1x2408) S1x2408.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2408.size a ≤ S1x2408.size a
  hwx0_4 : ∀ i : grid0.Coords, EltTy.bits .f32 = 32 ∨ (Rect.block (s := S1x2408) S1x2408.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2408.size a ≤ S1024x2408.size a
  hwx0_5 : ∀ i : grid0.Coords, EltTy.bits .f32 = 32 ∨ (Rect.block (s := S1024x2408) S1024x2408.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .f32 = 32 ∨ (Rect.block (s := S256x1024) S256x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S512x256.size a
  hwx0_10 : ∀ i : grid0.Coords, EltTy.bits .f32 = 32 ∨ (Rect.block (s := S512x256) S128x256.size (cc0_transform_10 i) (hinb0_10 i)).WholeWords (EltTy.packing .f32)

variable [Facts₀]

def dot_S128x875_S2408x875_S128x2408_1_1_0_0_n_n : DotDims S128x875 S2408x875 S128x2408 where
  lhsContracting := [1]
  rhsContracting := [1]
  lhsNonContracting := [0]
  rhsNonContracting := [0]
  lhsBatch := []
  rhsBatch := []
  wf := dot_S128x875_S2408x875_S128x2408_1_1_0_0_n_n_wf
def dot_S128x2408_S1024x2408_S128x1024_1_1_0_0_n_n : DotDims S128x2408 S1024x2408 S128x1024 where
  lhsContracting := [1]
  rhsContracting := [1]
  lhsNonContracting := [0]
  rhsNonContracting := [0]
  lhsBatch := []
  rhsBatch := []
  wf := dot_S128x2408_S1024x2408_S128x1024_1_1_0_0_n_n_wf
def dot_S128x1024_S256x1024_S128x256_1_1_0_0_n_n : DotDims S128x1024 S256x1024 S128x256 where
  lhsContracting := [1]
  rhsContracting := [1]
  lhsNonContracting := [0]
  rhsNonContracting := [0]
  lhsBatch := []
  rhsBatch := []
  wf := dot_S128x1024_S256x1024_S128x256_1_1_0_0_n_n_wf

abbrev win0_0 : Pipeline.Window sig grid0 :=
  Pipeline.Window.ofSpec (Memref.whole main_arg0) S128x875.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2408x875.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2408.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x2408.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x2408.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S128x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩
abbrev S512 : Shape := ⟨1, ![512]⟩
abbrev S512x1 : Shape := ⟨2, ![512, 1]⟩
abbrev S1x2408 : Shape := ⟨2, ![1, 2408]⟩
abbrev S512x2408 : Shape := ⟨2, ![512, 2408]⟩
abbrev S875x2408 : Shape := ⟨2, ![875, 2408]⟩
abbrev S2408x1024 : Shape := ⟨2, ![2408, 1024]⟩
abbrev S512x1024 : Shape := ⟨2, ![512, 1024]⟩
abbrev S1x1024 : Shape := ⟨2, ![1, 1024]⟩
abbrev S1024x206 : Shape := ⟨2, ![1024, 206]⟩
abbrev S512x206 : Shape := ⟨2, ![512, 206]⟩
abbrev S1x206 : Shape := ⟨2, ![1, 206]⟩

abbrev nBuf : Space → Nat
  | .hbm => 83
  | .vmem => 0
  | .smem => 0
  | _ => 0

abbrev bufTy : (tb : Table) → Fin (tcTables nBuf tb) → BufTy
  | .hbm, ⟨0, _⟩ => ⟨S512x875, .f32⟩
  | .hbm, ⟨1, _⟩ => ⟨S2408x875, .f32⟩
  | .hbm, ⟨2, _⟩ => ⟨S2408, .f32⟩
  | .hbm, ⟨3, _⟩ => ⟨S2408, .f32⟩
  | .hbm, ⟨4, _⟩ => ⟨S2408, .f32⟩
  | .hbm, ⟨5, _⟩ => ⟨S2408, .f32⟩
  | .hbm, ⟨6, _⟩ => ⟨S2408, .f32⟩
  | .hbm, ⟨7, _⟩ => ⟨S1024x2408, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S206x1024, .f32⟩
  | .hbm, ⟨14, _⟩ => ⟨S206, .f32⟩
  | .hbm, ⟨15, _⟩ => ⟨S512x875, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S2408x875, .f32⟩
  | .hbm, ⟨20, _⟩ => ⟨S_, .f32⟩
  | .hbm, ⟨21, _⟩ => ⟨S2408, .f32⟩
  | .hbm, ⟨22, _⟩ => ⟨S1x2408, .f32⟩
  | .hbm, ⟨23, _⟩ => ⟨S512x2408, .f32⟩
  | .hbm, ⟨24, _⟩ => ⟨S512x2408, .f32⟩
  | .hbm, ⟨25, _⟩ => ⟨S512x2408, .f32⟩
  | .hbm, ⟨26, _⟩ => ⟨S875x2408, .f32⟩
  | .hbm, ⟨27, _⟩ => ⟨S512x2408, .f32⟩
  | .hbm, ⟨28, _⟩ => ⟨S_, .f32⟩
  | .hbm, ⟨29, _⟩ => ⟨S512x2408, .f32⟩
  | .hbm, ⟨30, _⟩ => ⟨S512x2408, .f32⟩
  | .hbm, ⟨31, _⟩ => ⟨S512x2408, .f32⟩
  | .hbm, ⟨32, _⟩ => ⟨S_, .f32⟩
  | .hbm, ⟨33, _⟩ => ⟨S512x2408, .f32⟩
  | .hbm, ⟨34, _⟩ => ⟨S512x2408, .f32⟩
  | .hbm, ⟨35, _⟩ => ⟨S512x2408, .f32⟩
  | .hbm, ⟨36, _⟩ => ⟨S1x2408, .f32⟩
  | .hbm, ⟨37, _⟩ => ⟨S512x2408, .f32⟩
  | .hbm, ⟨38, _⟩ => ⟨S512x2408, .f32⟩
  | .hbm, ⟨39, _⟩ => ⟨S1x2408, .f32⟩
  | .hbm, ⟨40, _⟩ => ⟨S512x2408, .f32⟩
  | .hbm, ⟨41, _⟩ => ⟨S512x2408, .f32⟩
  | .hbm, ⟨42, _⟩ => ⟨S_, .f32⟩
  | .hbm, ⟨43, _⟩ => ⟨S2408, .f32⟩
  | .hbm, ⟨44, _⟩ => ⟨S2408, .f32⟩
  | .hbm, ⟨45, _⟩ => ⟨S2408, .f32⟩
  | .hbm, ⟨46, _⟩ => ⟨S2408, .f32⟩
  | .hbm, ⟨47, _⟩ => ⟨S1x2408, .f32⟩
  | .hbm, ⟨48, _⟩ => ⟨S512x2408, .f32⟩
  | .hbm, ⟨49, _⟩ => ⟨S512x2408, .f32⟩
  | .hbm, ⟨50, _⟩ => ⟨S1x2408, .f32⟩
  | .hbm, ⟨51, _⟩ => ⟨S512x2408, .f32⟩
  | .hbm, ⟨52, _⟩ => ⟨S512x2408, .f32⟩
  | .hbm, ⟨53, _⟩ => ⟨S_, .f32⟩
  | .hbm, ⟨54, _⟩ => ⟨S512x2408, .f32⟩
  | .hbm, ⟨55, _⟩ => ⟨S512x2408, .f32⟩
  | .hbm, ⟨56, _⟩ => ⟨S2408x1024, .f32⟩
  | .hbm, ⟨57, _⟩ => ⟨S512x1024, .f32⟩
  | .hbm, ⟨58, _⟩ => ⟨S1x1024, .f32⟩
  | .hbm, ⟨59, _⟩ => ⟨S512x1024, .f32⟩
  | .hbm, ⟨60, _⟩ => ⟨S512x1024, .f32⟩
  | .hbm, ⟨61, _⟩ => ⟨S1x1024, .f32⟩
  | .hbm, ⟨62, _⟩ => ⟨S512x1024, .f32⟩
  | .hbm, ⟨63, _⟩ => ⟨S512x1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S1x1024, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S1024x206, .f32⟩
  | .hbm, ⟨79, _⟩ => ⟨S512x206, .f32⟩
  | .hbm, ⟨80, _⟩ => ⟨S1x206, .f32⟩
  | .hbm, ⟨81, _⟩ => ⟨S512x206, .f32⟩
  | .hbm, ⟨82, _⟩ => ⟨S512x206, .f32⟩
  | _, _ => ⟨S512x875, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  reducesTo_S512x875_S512_d1 : S512x875.ReducesTo [1] S512
  h_S_ : 0 < S_.numel
  bcast_S512_S512x1_0 : S512.BroadcastsInDim S512x1 (![0] : Fin 1 → Fin S512x1.rank)
  reducesTo_S2408x875_S2408_d1 : S2408x875.ReducesTo [1] S2408
  bcast_S2408_S1x2408_1 : S2408.BroadcastsInDim S1x2408 (![1] : Fin 1 → Fin S1x2408.rank)
  bcast_S512x1_S512x2408_0_1 : S512x1.BroadcastsInDim S512x2408 (![0, 1] : Fin 2 → Fin S512x2408.rank)
  bcast_S1x2408_S512x2408_0_1 : S1x2408.BroadcastsInDim S512x2408 (![0, 1] : Fin 2 → Fin S512x2408.rank)
  transposes_S2408x875_S875x2408_1_0 : S2408x875.Transposes [1, 0] S875x2408
  bcast_S_S512x2408 : S_.BroadcastsInDim S512x2408 (![] : Fin 0 → Fin S512x2408.rank)
  bcast_S_S2408 : S_.BroadcastsInDim S2408 (![] : Fin 0 → Fin S2408.rank)
  transposes_S1024x2408_S2408x1024_1_0 : S1024x2408.Transposes [1, 0] S2408x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S1024 : S_.BroadcastsInDim S1024 (![] : Fin 0 → Fin S1024.rank)
  bcast_S_S512x1024 : S_.BroadcastsInDim S512x1024 (![] : Fin 0 → Fin S512x1024.rank)
  transposes_S206x1024_S1024x206_1_0 : S206x1024.Transposes [1, 0] S1024x206
  bcast_S206_S1x206_1 : S206.BroadcastsInDim S1x206 (![1] : Fin 1 → Fin S1x206.rank)
  bcast_S1x206_S512x206_0_1 : S1x206.BroadcastsInDim S512x206 (![0, 1] : Fin 2 → Fin S512x206.rank)
  dot_S512x875_S875x2408_S512x2408_1_0_0_1_n_n_wf : DotDims.WF S512x875 S875x2408 S512x2408 [1] [0] [0] [1] [] []
  dot_S512x2408_S2408x1024_S512x1024_1_0_0_1_n_n_wf : DotDims.WF S512x2408 S2408x1024 S512x1024 [1] [0] [0] [1] [] []
  dot_S512x1024_S1024x206_S512x206_1_0_0_1_n_n_wf : DotDims.WF S512x1024 S1024x206 S512x206 [1] [0] [0] [1] [] []

variable [Facts₀]

def dot_S512x875_S875x2408_S512x2408_1_0_0_1_n_n : DotDims S512x875 S875x2408 S512x2408 where
  lhsContracting := [1]
  rhsContracting := [0]
  lhsNonContracting := [0]
  rhsNonContracting := [1]
  lhsBatch := []
  rhsBatch := []
  wf := dot_S512x875_S875x2408_S512x2408_1_0_0_1_n_n_wf
def dot_S512x2408_S2408x1024_S512x1024_1_0_0_1_n_n : DotDims S512x2408 S2408x1024 S512x1024 where
  lhsContracting := [1]
  rhsContracting := [0]
  lhsNonContracting := [0]
  rhsNonContracting := [1]
  lhsBatch := []
  rhsBatch := []
  wf := dot_S512x2408_S2408x1024_S512x1024_1_0_0_1_n_n_wf
def dot_S512x1024_S1024x206_S512x206_1_0_0_1_n_n : DotDims S512x1024 S1024x206 S512x206 where
  lhsContracting := [1]
  rhsContracting := [0]
  lhsNonContracting := [0]
  rhsNonContracting := [1]
  lhsBatch := []
  rhsBatch := []
  wf := dot_S512x1024_S1024x206_S512x206_1_0_0_1_n_n_wf

class Facts : Prop extends Facts₀ where

variable [Facts]
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.Finite.lean ====
/-
  What the precondition says of the fifteen argument arrays, entry by entry: every entry is a real number (its
  absolute value is below +∞, so it is neither infinity), and the two variance vectors are nonnegative.
  The precondition is one conjunction of seventeen "all entries satisfy p" tests; each test that is 1 gives p at
  every entry.
-/
import proofs.«133424_j75797582840427_2_alg».proof.Pre_finite_inputs
import proofs.«133424_j75797582840427_2_alg».proof.Proof.LibIsReal
import Idealize.ShloMosaic.Lib.ReduceAll
import Idealize.ShloMosaic.Lib.ValueIdx
import Idealize.ShloMosaic.PureOps.Ideal.Laws

noncomputable section

namespace Cert.Rbf

open Idealize.ShloMosaic

instance : Subsingleton (⟨0, ![]⟩ : Shape).Idx := ⟨fun a b => funext fun d => d.elim0⟩

theorem ofBool_decide_eq_one {p : Prop} [Decidable p] (h : BitVec.ofBool (decide p) = 1#1) : p := by
  by_contra hp
  rw [decide_eq_false hp] at h
  exact absurd h (by decide)

/-- An entry whose absolute value tests below the f32 word of +∞ is a real number. -/
theorem isReal_of_abs_lt_inf {s : Shape} (x : s.Idx → EReal) (top : s.Idx → EReal)
    (htop : ∀ i, top i = Ideal.ofBits .f32 0x7F800000#32) (i : s.Idx)
    (h : cmpf (F := Ideal) (φ := .f32) .olt (Host.absf (F := Ideal) (φ := .f32) x) top i = 1#1) : IsReal (x i) := by
  have e : Ideal.ofBits .f32 0x7F800000#32 = ⊤ := by simp [Ideal.ofBits, Ideal.ieee]
  have h' : BitVec.ofBool (decide (max (x i) (-(x i)) < top i)) = 1#1 := h
  rw [htop i, e] at h'
  have hlt := ofBool_decide_eq_one h'
  generalize x i = y at hlt ⊢
  induction y using EReal.rec with
  | bot => simp at hlt
  | coe r => exact ⟨r, rfl⟩
  | top => simp at hlt

/-- An entry that tests at least the f32 word of zero is nonnegative. -/
theorem nonneg_of_ge_zero {s : Shape} (x : s.Idx → EReal) (z : s.Idx → EReal)
    (hz : ∀ i, z i = Ideal.ofBits .f32 0x00000000#32) (i : s.Idx)
    (h : cmpf (F := Ideal) (φ := .f32) .oge x z i = 1#1) : 0 ≤ x i := by
  have h' : BitVec.ofBool (decide (z i ≤ x i)) = 1#1 := h
  rw [hz i, Ideal.ofBits_zero_f32] at h'
  exact ofBool_decide_eq_one h'

section
open Cert.Pre_finite_inputs
variable [Cert.Pre_finite_inputs.Facts]
open Cert.Pre_finite_inputs.Facts

/-- The precondition, decoded. -/
theorem pre_decode (x0 : FVec Ideal S512x875 .f32) (x1 : FVec Ideal S2408x875 .f32)
    (x2 x3 x4 x5 x6 : FVec Ideal S2408 .f32) (x7 : FVec Ideal S1024x2408 .f32)
    (x8 x9 x10 x11 x12 : FVec Ideal S1024 .f32) (x13 : FVec Ideal S206x1024 .f32) (x14 : FVec Ideal S206 .f32)
    (h : Cert.Pre_finite_inputs.fn (F := Ideal) x0 x1 x2 x3 x4 x5 x6 x7 x8 x9 x10 x11 x12 x13 x14 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) ∧ (∀ i, IsReal (x12 i)) ∧ (∀ i, 0 ≤ x6 i) ∧ (∀ i, 0 ≤ x12 i) := by
  have e := congrFun h ValueIdx.ix0
  dsimp only [Cert.Pre_finite_inputs.fn, fn_part1, fn_part2, fn_part3, fn_part4] at e
  simp only [andi, IntOp.andi_eq_one] at e
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, -⟩, -⟩, v6⟩, v12⟩ := e
  refine ⟨fun i => ?_, fun i => ?_, fun i => ?_, fun i => ?_, fun i => ?_, fun i => ?_, fun i => ?_, fun i => ?_,
    fun i => ?_, fun i => ?_, fun i => ?_, fun i => ?_, fun i => ?_, fun i => ?_, fun i => ?_⟩
  · exact isReal_of_abs_lt_inf x0 _ (fun _ => rfl) i (Host.reduce_andi_all _ _ _ _ _ e0 i)
  · exact isReal_of_abs_lt_inf x1 _ (fun _ => rfl) i (Host.reduce_andi_all _ _ _ _ _ e1 i)
  · exact isReal_of_abs_lt_inf x2 _ (fun _ => rfl) i (Host.reduce_andi_all _ _ _ _ _ e2 i)
  · exact isReal_of_abs_lt_inf x3 _ (fun _ => rfl) i (Host.reduce_andi_all _ _ _ _ _ e3 i)
  · exact isReal_of_abs_lt_inf x4 _ (fun _ => rfl) i (Host.reduce_andi_all _ _ _ _ _ e4 i)
  · exact isReal_of_abs_lt_inf x5 _ (fun _ => rfl) i (Host.reduce_andi_all _ _ _ _ _ e5 i)
  · exact isReal_of_abs_lt_inf x6 _ (fun _ => rfl) i (Host.reduce_andi_all _ _ _ _ _ e6 i)
  · exact isReal_of_abs_lt_inf x7 _ (fun _ => rfl) i (Host.reduce_andi_all _ _ _ _ _ e7 i)
  · exact isReal_of_abs_lt_inf x8 _ (fun _ => rfl) i (Host.reduce_andi_all _ _ _ _ _ e8 i)
  · exact isReal_of_abs_lt_inf x9 _ (fun _ => rfl) i (Host.reduce_andi_all _ _ _ _ _ e9 i)
  · exact isReal_of_abs_lt_inf x10 _ (fun _ => rfl) i (Host.reduce_andi_all _ _ _ _ _ e10 i)
  · exact isReal_of_abs_lt_inf x11 _ (fun _ => rfl) i (Host.reduce_andi_all _ _ _ _ _ e11 i)
  · exact isReal_of_abs_lt_inf x12 _ (fun _ => rfl) i (Host.reduce_andi_all _ _ _ _ _ e12 i)
  · exact nonneg_of_ge_zero x6 _ (fun _ => rfl) i (Host.reduce_andi_all _ _ _ _ _ v6 i)
  · exact nonneg_of_ge_zero x12 _ (fun _ => rfl) i (Host.reduce_andi_all _ _ _ _ _ v12 i)

end

end Cert.Rbf

end
-- ==== Proof.Spec.lean ====
/-
  The arithmetic the two programs share, on the extended reals, away from any program text.

  A row x of the input is sent to its distances d_c = sqrt(max(|x|² + |c|² − 2·x·c, 0)) from the rows c of the
  centre matrix, then through two BatchNorm + ReLU + linear layers. One program multiplies by γ·rsqrt(v + ε) after
  folding the BatchNorm's mean, shift and the layer's bias into one scale and one offset per column; the other
  subtracts the mean, multiplies by γ / sqrt(v + ε) and adds the shift. For real operands and v + ε > 0 the two
  are one real affine map, so the two spellings of a hidden row agree entry by entry. That needs every operand to
  be a real number (distributivity fails at the infinities) and the variance v to be nonnegative (ε > 0 then keeps
  sqrt and rsqrt on their positive branch).
-/
import Idealize.ShloMosaic.PureOps.Ideal
import Idealize.ShloMosaic.Lib.ValueIdx
import proofs.«133424_j75797582840427_2_alg».proof.Proof.LibIsReal

noncomputable section

namespace Cert.Rbf

open Idealize.ShloMosaic

/-! ## Rows, columns and matrices of an array -/

open Idealize.ShloMosaic.ValueIdx in
/-- Row p of a two-axis array. -/
def rowAt {M K : Nat} (X : (⟨2, ![M, K]⟩ : Shape).Idx → EReal) (p : Fin M) : Fin K → EReal := fun k => X (ix2 p k)
open Idealize.ShloMosaic.ValueIdx in
/-- A two-axis array as a matrix. -/
def mat {M K : Nat} (X : (⟨2, ![M, K]⟩ : Shape).Idx → EReal) : Fin M → Fin K → EReal := fun a b => X (ix2 a b)
open Idealize.ShloMosaic.ValueIdx in
/-- The one row of a 1 × C array. -/
def row0 {C : Nat} (X : (⟨2, ![1, C]⟩ : Shape).Idx → EReal) : Fin C → EReal := fun l => X (ix2 ⟨0, Nat.one_pos⟩ l)
open Idealize.ShloMosaic.ValueIdx in
/-- A vector's entries. -/
def vec {C : Nat} (X : (⟨1, ![C]⟩ : Shape).Idx → EReal) : Fin C → EReal := fun l => X (ix1 l)

/-- The f32 word of 2.0 both programs multiply the products by. -/
abbrev twoW : EReal := Ideal.ofBits .f32 0x40000000#32
/-- The f32 word both programs add to a variance (the float nearest 1e-5). -/
abbrev epsW : EReal := Ideal.ofBits .f32 0x3727C5AC#32

/-! ## Real numbers among the extended reals -/

theorem isReal_max {a b : EReal} (ha : IsReal a) (hb : IsReal b) : IsReal (max a b) := by
  rcases le_total a b with h | h
  · rw [max_eq_right h]; exact hb
  · rw [max_eq_left h]; exact ha

/-- The square root of a real clamped at zero from below is real. -/
theorem isReal_sqrt_max_zero {a : EReal} (ha : IsReal a) : IsReal (Ideal.sqrt (max a 0)) := by
  obtain ⟨x, rfl⟩ := ha
  rcases le_total (x : EReal) 0 with h | h
  · rw [max_eq_right h, ← EReal.coe_zero, Ideal.sqrt_coe, if_neg (lt_irrefl 0)]; exact ⟨_, rfl⟩
  · rw [max_eq_left h, Ideal.sqrt_coe, if_neg (not_lt.2 (EReal.coe_nonneg.1 h))]; exact ⟨_, rfl⟩

/-- The f32 word of 2.0 is a real number. -/
theorem two_real : IsReal twoW :=
  isReal_ieee 8 23 (0x40000000#32 : BitVec 32) (by decide)

/-- The f32 word both programs add to a variance (the float nearest 1e-5) is a positive real. -/
theorem eps_pos : ∃ r : ℝ, 0 < r ∧ epsW = (r : EReal) := by
  refine ⟨(10995116 : ℝ) * (2 : ℝ) ^ (-40 : ℤ), by positivity, ?_⟩
  simp [Ideal.ofBits, Ideal.ieee, -EReal.coe_mul]

/-! ## BatchNorm's reciprocal standard deviation, two spellings -/

/-- γ · rsqrt(v + ε) for reals with v + ε > 0. -/
theorem scale_rsqrt (g v e : ℝ) (h : 0 < v + e) :
    (g : EReal) * Ideal.rsqrt ((v : EReal) + (e : EReal)) = ((g * (Real.sqrt (v + e))⁻¹ : ℝ) : EReal) := by
  rw [← EReal.coe_add, Ideal.rsqrt_coe, if_neg (not_lt.2 h.le), if_neg h.ne', ← EReal.coe_mul]

/-- γ / sqrt(v + ε) for reals with v + ε > 0: the same real. -/
theorem scale_div_sqrt (g v e : ℝ) (h : 0 < v + e) :
    Ideal.div (g : EReal) (Ideal.sqrt ((v : EReal) + (e : EReal))) = ((g * (Real.sqrt (v + e))⁻¹ : ℝ) : EReal) := by
  rw [← EReal.coe_add, Ideal.sqrt_coe, if_neg (not_lt.2 h.le),
    Ideal.div_coe (Real.sqrt_pos.2 h).ne', one_div, ← EReal.coe_mul]

/-- BatchNorm after a scaling by σ, folded into one scale and one offset: d·(σ·s) + (β − μ·s) = (d·σ − μ)·s' + β
    where s = γ·rsqrt(v + ε) and s' = γ / sqrt(v + ε). -/
theorem bn_fold_scaled {d sg g b mu v e : EReal} (hd : IsReal d) (hsg : IsReal sg) (hg : IsReal g) (hb : IsReal b)
    (hmu : IsReal mu) (hv : IsReal v) (hv0 : 0 ≤ v) (he : ∃ r : ℝ, 0 < r ∧ e = (r : EReal)) :
    d * (sg * (g * Ideal.rsqrt (v + e))) + (b - mu * (g * Ideal.rsqrt (v + e)))
      = (d * sg - mu) * Ideal.div g (Ideal.sqrt (v + e)) + b := by
  obtain ⟨d, rfl⟩ := hd; obtain ⟨sg, rfl⟩ := hsg; obtain ⟨g, rfl⟩ := hg; obtain ⟨b, rfl⟩ := hb
  obtain ⟨mu, rfl⟩ := hmu; obtain ⟨v, rfl⟩ := hv; obtain ⟨e, he0, rfl⟩ := he
  have h : 0 < v + e := add_pos_of_nonneg_of_pos (EReal.coe_nonneg.1 hv0) he0
  rw [scale_rsqrt g v e h, scale_div_sqrt g v e h]
  simp only [← EReal.coe_mul, ← EReal.coe_add, ← EReal.coe_sub]
  exact congrArg _ (by ring)

/-- BatchNorm after a bias, folded: D·s + ((c·s + β) − μ·s) = ((D + c) − μ)·s' + β. -/
theorem bn_fold_biased {D c g b mu v e : EReal} (hD : IsReal D) (hc : IsReal c) (hg : IsReal g) (hb : IsReal b)
    (hmu : IsReal mu) (hv : IsReal v) (hv0 : 0 ≤ v) (he : ∃ r : ℝ, 0 < r ∧ e = (r : EReal)) :
    D * (g * Ideal.rsqrt (v + e)) + ((c * (g * Ideal.rsqrt (v + e)) + b) - mu * (g * Ideal.rsqrt (v + e)))
      = ((D + c) - mu) * Ideal.div g (Ideal.sqrt (v + e)) + b := by
  obtain ⟨D, rfl⟩ := hD; obtain ⟨c, rfl⟩ := hc; obtain ⟨g, rfl⟩ := hg; obtain ⟨b, rfl⟩ := hb
  obtain ⟨mu, rfl⟩ := hmu; obtain ⟨v, rfl⟩ := hv; obtain ⟨e, he0, rfl⟩ := he
  have h : 0 < v + e := add_pos_of_nonneg_of_pos (EReal.coe_nonneg.1 hv0) he0
  rw [scale_rsqrt g v e h, scale_div_sqrt g v e h]
  simp only [← EReal.coe_mul, ← EReal.coe_add, ← EReal.coe_sub]
  exact congrArg _ (by ring)

/-! ## One row through the network -/

section Row
variable {nF nC nH nO : Nat}
variable (two e : EReal)

/-- |x|². -/
def sq (x : Fin nF → EReal) : EReal := ∑ k, x k * x k

/-- The distance of x from one centre row c. -/
def dist (x c : Fin nF → EReal) : EReal := Ideal.sqrt (max ((sq x + sq c) - two * ∑ k, x k * c k) 0)

/-- First hidden row from a scale row s and an offset row t (and the centres' squared norms c2) given as data. -/
def hidAff (x : Fin nF → EReal) (Cn : Fin nC → Fin nF → EReal) (c2 s t : Fin nC → EReal) (c : Fin nC) : EReal :=
  max (Ideal.sqrt (max ((sq x + c2 c) - two * ∑ k, x k * Cn c k) 0) * s c + t c) 0

/-- First hidden row, BatchNorm spelt out. -/
def hidPlain (x : Fin nF → EReal) (Cn : Fin nC → Fin nF → EReal) (sg g1 b1 mu1 v1 : Fin nC → EReal) (c : Fin nC) : EReal :=
  max ((dist two x (Cn c) * sg c - mu1 c) * Ideal.div (g1 c) (Ideal.sqrt (v1 c + e)) + b1 c) 0

/-- Second hidden row from a first one, a scale row and an offset row given as data. -/
def hid2Aff (h : Fin nC → EReal) (W1 : Fin nH → Fin nC → EReal) (s t : Fin nH → EReal) (j : Fin nH) : EReal :=
  max ((∑ c, h c * W1 j c) * s j + t j) 0

/-- Second hidden row from a first one, spelt out. -/
def hid2Plain (h : Fin nC → EReal) (W1 : Fin nH → Fin nC → EReal) (c1 g2 b2 mu2 v2 : Fin nH → EReal) (j : Fin nH) : EReal :=
  max ((((∑ c, h c * W1 j c) + c1 j) - mu2 j) * Ideal.div (g2 j) (Ideal.sqrt (v2 j + e)) + b2 j) 0

/-- The output row from a second hidden row. -/
def outRow (h2 : Fin nH → EReal) (W2 : Fin nO → Fin nH → EReal) (c2 : Fin nO → EReal) (o : Fin nO) : EReal :=
  (∑ j, h2 j * W2 o j) + c2 o

variable {two e}

theorem isReal_sq {x : Fin nF → EReal} (hx : ∀ k, IsReal (x k)) : IsReal (sq x) :=
  IsReal.sum _ _ fun k => (hx k).mul (hx k)

theorem isReal_dist (h2 : IsReal two) {x c : Fin nF → EReal} (hx : ∀ k, IsReal (x k)) (hc : ∀ k, IsReal (c k)) :
    IsReal (dist two x c) :=
  isReal_sqrt_max_zero (((isReal_sq hx).add (isReal_sq hc)).sub (h2.mul (IsReal.sum _ _ fun k => (hx k).mul (hc k))))

/-- The folded first hidden row — squared norms |c|², scale σ·γ·rsqrt(v + ε), offset β − μ·γ·rsqrt(v + ε) — is the
    spelt-out one. -/
theorem hidAff_fold (h2 : IsReal two) (he : ∃ r : ℝ, 0 < r ∧ e = (r : EReal))
    {x : Fin nF → EReal} {Cn : Fin nC → Fin nF → EReal} {sg g1 b1 mu1 v1 : Fin nC → EReal}
    (hx : ∀ k, IsReal (x k)) (hC : ∀ c k, IsReal (Cn c k)) (hsg : ∀ c, IsReal (sg c)) (hg : ∀ c, IsReal (g1 c))
    (hb : ∀ c, IsReal (b1 c)) (hmu : ∀ c, IsReal (mu1 c)) (hv : ∀ c, IsReal (v1 c)) (hv0 : ∀ c, 0 ≤ v1 c) (c : Fin nC) :
    hidAff two x Cn (fun c => sq (Cn c)) (fun c => sg c * (g1 c * Ideal.rsqrt (v1 c + e)))
        (fun c => b1 c - mu1 c * (g1 c * Ideal.rsqrt (v1 c + e))) c
      = hidPlain two e x Cn sg g1 b1 mu1 v1 c := by
  unfold hidAff hidPlain
  exact congrArg (max · 0)
    (bn_fold_scaled (isReal_dist h2 hx (hC c)) (hsg c) (hg c) (hb c) (hmu c) (hv c) (hv0 c) he)

/-- A first hidden row is real. -/
theorem isReal_hidPlain (h2 : IsReal two) (he : ∃ r : ℝ, 0 < r ∧ e = (r : EReal))
    {x : Fin nF → EReal} {Cn : Fin nC → Fin nF → EReal} {sg g1 b1 mu1 v1 : Fin nC → EReal}
    (hx : ∀ k, IsReal (x k)) (hC : ∀ c k, IsReal (Cn c k)) (hsg : ∀ c, IsReal (sg c)) (hg : ∀ c, IsReal (g1 c))
    (hb : ∀ c, IsReal (b1 c)) (hmu : ∀ c, IsReal (mu1 c)) (hv : ∀ c, IsReal (v1 c)) (hv0 : ∀ c, 0 ≤ v1 c) (c : Fin nC) :
    IsReal (hidPlain two e x Cn sg g1 b1 mu1 v1 c) := by
  unfold hidPlain
  obtain ⟨g, hg'⟩ := hg c; obtain ⟨v, hv'⟩ := hv c; obtain ⟨r, hr0, rfl⟩ := he
  have hpos : 0 < v + r := add_pos_of_nonneg_of_pos (EReal.coe_nonneg.1 (hv' ▸ hv0 c)) hr0
  rw [hg', hv', scale_div_sqrt g v r hpos]
  exact isReal_max (((((isReal_dist h2 hx (hC c)).mul (hsg c)).sub (hmu c)).mul (IsReal.coe _)).add (hb c)) IsReal.zero

/-- The folded second hidden row — scale γ·rsqrt(v + ε), offset (b·scale + β) − μ·scale — is the spelt-out one, when
    the first hidden row is real. -/
theorem hid2Aff_fold (he : ∃ r : ℝ, 0 < r ∧ e = (r : EReal))
    {h : Fin nC → EReal} {W1 : Fin nH → Fin nC → EReal} {c1 g2 b2 mu2 v2 : Fin nH → EReal}
    (hh : ∀ c, IsReal (h c)) (hW : ∀ j c, IsReal (W1 j c)) (hc1 : ∀ j, IsReal (c1 j)) (hg : ∀ j, IsReal (g2 j))
    (hb : ∀ j, IsReal (b2 j)) (hmu : ∀ j, IsReal (mu2 j)) (hv : ∀ j, IsReal (v2 j)) (hv0 : ∀ j, 0 ≤ v2 j) (j : Fin nH) :
    hid2Aff h W1 (fun j => g2 j * Ideal.rsqrt (v2 j + e))
        (fun j => (c1 j * (g2 j * Ideal.rsqrt (v2 j + e)) + b2 j) - mu2 j * (g2 j * Ideal.rsqrt (v2 j + e))) j
      = hid2Plain e h W1 c1 g2 b2 mu2 v2 j := by
  unfold hid2Aff hid2Plain
  exact congrArg (max · 0)
    (bn_fold_biased (IsReal.sum _ _ fun c => (hh c).mul (hW j c)) (hc1 j) (hg j) (hb j) (hmu j) (hv j) (hv0 j) he)

end Row

end Cert.Rbf

end
-- ==== Proof.LibMatmulNT.lean ====
/-
  A matrix product whose two operands are both contracted on their SECOND axis (an M×K left operand against an N×K
  right operand, the weight matrix stored row per output column), accumulated into zero, read at one entry of the
  result on the extended reals: entry (p, q) is the sum over k of left (p, k) · right (q, k). Every extent is
  arbitrary; the dimension record is any record with that contraction, its few structural facts passed as
  hypotheses (each is closed by rfl or by unfolding at a printed record).
-/
import Idealize.ShloMosaic.PureOps.Ideal.Laws
import Idealize.ShloMosaic.Lib.ValueIdx

noncomputable section

namespace Cert.MatmulNT

open Idealize.ShloMosaic Idealize.ShloMosaic.ValueIdx

/-- Entry (p, q) of left · rightᵀ into a zero accumulator is ∑ₖ left (p, k) · right (q, k). -/
theorem apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ (j : (⟨2, ![M, N]⟩ : Shape).Idx) (q : d.contr.Idx), (d.lhsIdx j q 0).val = (j 0).val)
    (hr0 : ∀ (j : (⟨2, ![M, N]⟩ : Shape).Idx) (q : d.contr.Idx), (d.rhsIdx j q 0).val = (j 1).val)
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

end Cert.MatmulNT

end
-- ==== Proof.KerBlock.lean ====
/-
  What one grid point's body computes, entry by entry, from the ten blocks it loads.

  Row p of the output block depends on row p of the input block alone: its squared norm and its products with
  every centre row give the distances, a scale row and an offset row (loaded 1 × C) give the first hidden row, the
  product with the first weight matrix and a second scale / offset pair the second, the product with the second
  weight matrix plus a bias row the output. The three products contract both operands on their second axis; the
  changes of float format on the way into them are the identity on the extended reals.
-/
import proofs.«133424_j75797582840427_2_alg».proof.Proof.Gen.KernelIdeal.Skeleton
import proofs.«133424_j75797582840427_2_alg».proof.Proof.Spec
import proofs.«133424_j75797582840427_2_alg».proof.Proof.LibMatmulNT
import Idealize.ShloMosaic.Lib.Pipeline.Value
import Idealize.ShloMosaic.Lib.ValueIdx
import Idealize.ShloMosaic.PureOps.Ideal.Laws

noncomputable section

namespace Cert.Rbf

open Idealize.ShloMosaic Idealize.ShloMosaic.ValueIdx

/-! ## Layout operations of a row tile read at an entry -/

/-- A 1 × C row (cast to its own shape) repeated down T rows reads its entry l in column l. -/
theorem rowRepeat {T C : Nat} (x : (⟨2, ![1, C]⟩ : Shape).Idx → EReal)
    (h1 : (⟨2, ![1, C]⟩ : Shape).ShapeCasts ⟨2, ![1, C]⟩) (h2 : (⟨2, ![1, C]⟩ : Shape).Broadcasts ⟨2, ![T, C]⟩)
    (p : Fin T) (l : Fin C) :
    broadcastTo ⟨2, ![T, C]⟩ (shapeCast ⟨2, ![1, C]⟩ x h1) h2 (ix2 p l) = row0 x l := by
  have hl := l.isLt
  rw [shapeCast_self]
  refine broadcastTo_apply _ h2 (ix2 p l) (ix2 ⟨0, Nat.one_pos⟩ l) fun a => ?_
  match a with
  | ⟨0, _⟩ => rfl
  | ⟨1, _⟩ =>
    show l.val = if C = 1 then 0 else l.val
    split <;> omega

/-- A T-vector cast to a T × 1 column and repeated across C columns reads its entry p in row p. -/
theorem colRepeat {T C : Nat} (v : (⟨1, ![T]⟩ : Shape).Idx → EReal)
    (h1 : (⟨1, ![T]⟩ : Shape).ShapeCasts ⟨2, ![T, 1]⟩) (h2 : (⟨2, ![T, 1]⟩ : Shape).Broadcasts ⟨2, ![T, C]⟩)
    (p : Fin T) (l : Fin C) :
    broadcastTo ⟨2, ![T, C]⟩ (shapeCast ⟨2, ![T, 1]⟩ v h1) h2 (ix2 p l) = v (ix1 p) := by
  have hp := p.isLt
  refine (broadcastTo_apply _ h2 (ix2 p l) (ix2 p ⟨0, Nat.one_pos⟩) fun a => ?_).trans ?_
  · match a with
    | ⟨0, _⟩ =>
      show p.val = if T = 1 then 0 else p.val
      split <;> omega
    | ⟨1, _⟩ => rfl
  · refine shapeCast_apply v h1 (ix2 p ⟨0, Nat.one_pos⟩) (ix1 p) ?_
    rw [Shape.rowMajor_val_one, Shape.rowMajor_val_two]
    show p.val = p.val * 1 + 0
    omega

/-- A sum along the second axis of a T × K array, read at row p. -/
theorem laneSum {T K : Nat} (src : FVec Ideal ⟨2, ![T, K]⟩ .f32)
    (h : (⟨2, ![T, K]⟩ : Shape).Reduces [1] ⟨1, ![T]⟩) (hφ : FKind.Formats .f32)
    (hacc : (0x00000000#32 : BitVec 32) = FKind.add.neutral .f32 hφ) (p : Fin T) :
    multiReduction .add [1] ⟨1, ![T]⟩ src 0x00000000#32 h hφ hacc (ix1 p) = ∑ k : Fin K, src (ix2 p k) := by
  refine (Ideal.multiReduction_add_single src _ h hφ hacc (ix1 p)).trans (Finset.sum_congr rfl fun k _ => congrArg src ?_)
  funext a
  apply Fin.ext
  match a with
  | ⟨0, _⟩ => rfl
  | ⟨1, _⟩ => rfl

section Body
open Cert.KernelIdeal Cert.KernelIdeal.Gen
variable [Cert.KernelIdeal.Facts]
open Cert.KernelIdeal.Facts₀

/-! ## The three products' dimension records -/

theorem d1_l0 (j : S128x2408.Idx) (q : dot_S128x875_S2408x875_S128x2408_1_1_0_0_n_n.contr.Idx) :
    (dot_S128x875_S2408x875_S128x2408_1_1_0_0_n_n.lhsIdx j q 0).val = (j 0).val := by
  unfold DotDims.lhsIdx
  rw [dif_neg (show ¬(0 : Fin S128x875.rank) ∈ dot_S128x875_S2408x875_S128x2408_1_1_0_0_n_n.lhsBatch by decide),
    dif_pos (show (0 : Fin S128x875.rank) ∈ dot_S128x875_S2408x875_S128x2408_1_1_0_0_n_n.lhsNonContracting by decide)]
  rfl
theorem d1_r0 (j : S128x2408.Idx) (q : dot_S128x875_S2408x875_S128x2408_1_1_0_0_n_n.contr.Idx) :
    (dot_S128x875_S2408x875_S128x2408_1_1_0_0_n_n.rhsIdx j q 0).val = (j 1).val := by
  unfold DotDims.rhsIdx
  rw [dif_neg (show ¬(0 : Fin S2408x875.rank) ∈ dot_S128x875_S2408x875_S128x2408_1_1_0_0_n_n.rhsBatch by decide),
    dif_pos (show (0 : Fin S2408x875.rank) ∈ dot_S128x875_S2408x875_S128x2408_1_1_0_0_n_n.rhsNonContracting by decide)]
  rfl
theorem d2_l0 (j : S128x1024.Idx) (q : dot_S128x2408_S1024x2408_S128x1024_1_1_0_0_n_n.contr.Idx) :
    (dot_S128x2408_S1024x2408_S128x1024_1_1_0_0_n_n.lhsIdx j q 0).val = (j 0).val := by
  unfold DotDims.lhsIdx
  rw [dif_neg (show ¬(0 : Fin S128x2408.rank) ∈ dot_S128x2408_S1024x2408_S128x1024_1_1_0_0_n_n.lhsBatch by decide),
    dif_pos (show (0 : Fin S128x2408.rank) ∈ dot_S128x2408_S1024x2408_S128x1024_1_1_0_0_n_n.lhsNonContracting by decide)]
  rfl
theorem d2_r0 (j : S128x1024.Idx) (q : dot_S128x2408_S1024x2408_S128x1024_1_1_0_0_n_n.contr.Idx) :
    (dot_S128x2408_S1024x2408_S128x1024_1_1_0_0_n_n.rhsIdx j q 0).val = (j 1).val := by
  unfold DotDims.rhsIdx
  rw [dif_neg (show ¬(0 : Fin S1024x2408.rank) ∈ dot_S128x2408_S1024x2408_S128x1024_1_1_0_0_n_n.rhsBatch by decide),
    dif_pos (show (0 : Fin S1024x2408.rank) ∈ dot_S128x2408_S1024x2408_S128x1024_1_1_0_0_n_n.rhsNonContracting by decide)]
  rfl
theorem d3_l0 (j : S128x256.Idx) (q : dot_S128x1024_S256x1024_S128x256_1_1_0_0_n_n.contr.Idx) :
    (dot_S128x1024_S256x1024_S128x256_1_1_0_0_n_n.lhsIdx j q 0).val = (j 0).val := by
  unfold DotDims.lhsIdx
  rw [dif_neg (show ¬(0 : Fin S128x1024.rank) ∈ dot_S128x1024_S256x1024_S128x256_1_1_0_0_n_n.lhsBatch by decide),
    dif_pos (show (0 : Fin S128x1024.rank) ∈ dot_S128x1024_S256x1024_S128x256_1_1_0_0_n_n.lhsNonContracting by decide)]
  rfl
theorem d3_r0 (j : S128x256.Idx) (q : dot_S128x1024_S256x1024_S128x256_1_1_0_0_n_n.contr.Idx) :
    (dot_S128x1024_S256x1024_S128x256_1_1_0_0_n_n.rhsIdx j q 0).val = (j 1).val := by
  unfold DotDims.rhsIdx
  rw [dif_neg (show ¬(0 : Fin S256x1024.rank) ∈ dot_S128x1024_S256x1024_S128x256_1_1_0_0_n_n.rhsBatch by decide),
    dif_pos (show (0 : Fin S256x1024.rank) ∈ dot_S128x1024_S256x1024_S128x256_1_1_0_0_n_n.rhsNonContracting by decide)]
  rfl

/-! ## The body's two payloads at an entry -/

/-- The second payload: from the second hidden pre-activation (already scaled), add the offset row, clamp at zero,
    multiply with the second weight matrix and add the bias row. -/
theorem pay1_at (v36 : FVec Ideal S128x1024 .f32) (x7 : Vec Ideal S1x1024 .f32) (x8 : Vec Ideal S256x1024 .f32)
    (x9 : Vec Ideal S1x256 .f32) (p : Fin 128) (q : Fin 256) :
    k0_pay1 (F := Ideal) v36 x7 x8 x9 (ix2 p q)
      = outRow (fun j => max (v36 (ix2 p j) + row0 x7 j) 0) (mat x8) (row0 x9) q := by
  unfold k0_pay1 outRow
  refine congrArg₂ (· + ·) ?_ (rowRepeat x9 _ _ p q)
  refine (MatmulNT.apply dot_S128x1024_S256x1024_S128x256_1_1_0_0_n_n rfl rfl rfl rfl d3_l0 d3_r0 none _ _ p q).trans
    (Finset.sum_congr rfl fun j _ => ?_)
  refine congrArg₂ (· * ·) ?_ ?_
  · show max (v36 (ix2 p j) + broadcastTo S128x1024 (shapeCast S1x1024 x7 _) _ (ix2 p j)) (Ideal.ofBits .f32 0x00000000#32) = _
    rw [rowRepeat x7 _ _ p j, Ideal.ofBits_zero_f32]
  · show shapeCast S256x1024 x8 _ (ix2 q j) = _
    rw [shapeCast_self]
    rfl

/-- The first payload: the distances of row p from every centre row, the first hidden row, its product with the first
    weight matrix, and the second scale row. -/
theorem pay2_at (x0 : Vec Ideal S128x875 .f32) (x1 : Vec Ideal S2408x875 .f32) (x2 x3 x4 : Vec Ideal S1x2408 .f32)
    (x5 : Vec Ideal S1024x2408 .f32) (x6 : Vec Ideal S1x1024 .f32) (p : Fin 128) (j : Fin 1024) :
    k0_pay2 (F := Ideal) x0 x1 x2 x3 x4 x5 x6 (ix2 p j)
      = (∑ c : Fin 2408, hidAff twoW (rowAt x0 p) (mat x1) (row0 x2) (row0 x3) (row0 x4) c * mat x5 j c) * row0 x6 j := by
  unfold k0_pay2
  refine congrArg₂ (· * ·) ?_ (rowRepeat x6 _ _ p j)
  refine (MatmulNT.apply dot_S128x2408_S1024x2408_S128x1024_1_1_0_0_n_n rfl rfl rfl rfl d2_l0 d2_r0 none _ _ p j).trans
    (Finset.sum_congr rfl fun c _ => ?_)
  refine congrArg₂ (· * ·) ?_ rfl
  unfold hidAff
  refine congrArg₂ max ?_ Ideal.ofBits_zero_f32
  refine congrArg₂ (· + ·) (congrArg₂ (· * ·) (congrArg Ideal.sqrt (congrArg₂ max ?_ Ideal.ofBits_zero_f32))
    (rowRepeat x3 _ _ p c)) (rowRepeat x4 _ _ p c)
  refine congrArg₂ (· - ·) (congrArg₂ (· + ·) ?_ (rowRepeat x2 _ _ p c)) (congrArg₂ (· * ·) rfl ?_)
  · refine (colRepeat _ _ _ p c).trans ?_
    exact laneSum _ _ _ _ p
  · exact MatmulNT.apply dot_S128x875_S2408x875_S128x2408_1_1_0_0_n_n rfl rfl rfl rfl d1_l0 d1_r0 none _ _ p c

/-- One entry of what a grid point stores, from the ten blocks it loaded. -/
theorem body_at (x0 : Vec Ideal S128x875 .f32) (x1 : Vec Ideal S2408x875 .f32) (x2 x3 x4 : Vec Ideal S1x2408 .f32)
    (x5 : Vec Ideal S1024x2408 .f32) (x6 x7 : Vec Ideal S1x1024 .f32) (x8 : Vec Ideal S256x1024 .f32)
    (x9 : Vec Ideal S1x256 .f32) (p : Fin 128) (q : Fin 256) :
    k0_pay1 (F := Ideal) (k0_pay2 x0 x1 x2 x3 x4 x5 x6) x7 x8 x9 (ix2 p q)
      = outRow (hid2Aff (hidAff twoW (rowAt x0 p) (mat x1) (row0 x2) (row0 x3) (row0 x4)) (mat x5) (row0 x6) (row0 x7))
          (mat x8) (row0 x9) q := by
  rw [pay1_at]
  refine congrArg (fun h => outRow h (mat x8) (row0 x9) q) (funext fun j => ?_)
  rw [pay2_at]
  rfl

end Body

end Cert.Rbf

end
-- ==== Proof.KerValue.lean ====
/-
  The array the kernel's region leaves, as one function of the program's arguments.

  Grid point t loads rows [128 t, 128 t + 128) of the input and the nine other arrays whole, and writes rows
  [128 t, 128 t + 128) of a 512 × 256 array; the four points' blocks tile that array, so it ends holding, at
  (r, q), the network's output for input row r in (padded) output column q. The host then keeps columns
  [0, 206).
-/
import proofs.«133424_j75797582840427_2_alg».proof.Proof.Gen.KernelIdeal.Frame
import proofs.«133424_j75797582840427_2_alg».proof.Proof.KerBlock
import Idealize.ShloMosaic.Lib.Pipeline.Value
import Idealize.ShloMosaic.Lib.StableHlo.Run

set_option maxRecDepth 16384

noncomputable section

namespace Cert.Rbf

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The windows' block indices over the grid -/

theorem idxW0 : ∀ t : Fin cfg0.N, win0_0.index t (0 : Fin 2) = t.val ∧ win0_0.index t (1 : Fin 2) = 0 :=
  (by decide +kernel : ∀ t : Fin grid0.N, _)
theorem idxW1 : ∀ t : Fin cfg0.N, win0_1.index t (0 : Fin 2) = 0 ∧ win0_1.index t (1 : Fin 2) = 0 :=
  (by decide +kernel : ∀ t : Fin grid0.N, _)
theorem idxW2 : ∀ t : Fin cfg0.N, win0_2.index t (0 : Fin 2) = 0 ∧ win0_2.index t (1 : Fin 2) = 0 :=
  (by decide +kernel : ∀ t : Fin grid0.N, _)
theorem idxW3 : ∀ t : Fin cfg0.N, win0_3.index t (0 : Fin 2) = 0 ∧ win0_3.index t (1 : Fin 2) = 0 :=
  (by decide +kernel : ∀ t : Fin grid0.N, _)
theorem idxW4 : ∀ t : Fin cfg0.N, win0_4.index t (0 : Fin 2) = 0 ∧ win0_4.index t (1 : Fin 2) = 0 :=
  (by decide +kernel : ∀ t : Fin grid0.N, _)
theorem idxW5 : ∀ t : Fin cfg0.N, win0_5.index t (0 : Fin 2) = 0 ∧ win0_5.index t (1 : Fin 2) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxW7 : ∀ t : Fin cfg0.N, win0_7.index t (0 : Fin 2) = 0 ∧ win0_7.index t (1 : Fin 2) = 0 :=
  (by decide +kernel : ∀ t : Fin grid0.N, _)
theorem idxW8 : ∀ t : Fin cfg0.N, win0_8.index t (0 : Fin 2) = 0 ∧ win0_8.index t (1 : Fin 2) = 0 :=
  (by decide +kernel : ∀ t : Fin grid0.N, _)
theorem idxW9 : ∀ t : Fin cfg0.N, win0_9.index t (0 : Fin 2) = 0 ∧ win0_9.index t (1 : Fin 2) = 0 :=
  (by decide +kernel : ∀ t : Fin grid0.N, _)
theorem idxW10 : ∀ t : Fin cfg0.N, win0_10.index t (0 : Fin 2) = t.val ∧ win0_10.index t (1 : Fin 2) = 0 :=
  (by decide +kernel : ∀ t : Fin grid0.N, _)

/-! ## The input blocks a point loads -/

/-- Row p of the input block at point t is row 128 t + p of the input. -/
theorem iblk0_row (c : Dev nD) (t : Fin cfg0.N) (p : Fin 128) (r : Fin 512) (hr : r.val = 128 * t.val + p.val) :
    rowAt (iblk m c 0 t : S128x875.Idx → EReal) p = rowAt (V m c main_arg0 : S512x875.Idx → EReal) r := by
  funext k
  show V m c main_arg0 (((cfg0.win 0).blk t).view.emb (ix2 p k)) = V m c main_arg0 (ix2 r k)
  refine congrArg (V m c main_arg0) (funext fun a => Fin.ext ?_)
  obtain ⟨e0, e1⟩ := idxW0 t
  match a with
  | ⟨0, _⟩ => show win0_0.index t (0 : Fin 2) * 128 + 1 * p.val = r.val; omega
  | ⟨1, _⟩ => show win0_0.index t (1 : Fin 2) * 875 + 1 * k.val = k.val; omega

theorem iblk1_eq (c : Dev nD) (t : Fin cfg0.N) : (iblk m c 1 t : S2408x875.Idx → EReal) = V m c main_arg1 := by
  funext y
  show V m c main_arg1 (((cfg0.win 1).blk t).view.emb y) = V m c main_arg1 y
  refine congrArg (V m c main_arg1) (funext fun a => Fin.ext ?_)
  obtain ⟨e0, e1⟩ := idxW1 t
  match a with
  | ⟨0, _⟩ => show win0_1.index t (0 : Fin 2) * 2408 + 1 * (y 0).val = (y 0).val; omega
  | ⟨1, _⟩ => show win0_1.index t (1 : Fin 2) * 875 + 1 * (y 1).val = (y 1).val; omega
theorem iblk2_eq (c : Dev nD) (t : Fin cfg0.N) : (iblk m c 2 t : S1x2408.Idx → EReal) = V m c main_v2 := by
  funext y
  show V m c main_v2 (((cfg0.win 2).blk t).view.emb y) = V m c main_v2 y
  refine congrArg (V m c main_v2) (funext fun a => Fin.ext ?_)
  obtain ⟨e0, e1⟩ := idxW2 t
  match a with
  | ⟨0, _⟩ => show win0_2.index t (0 : Fin 2) * 1 + 1 * (y 0).val = (y 0).val; omega
  | ⟨1, _⟩ => show win0_2.index t (1 : Fin 2) * 2408 + 1 * (y 1).val = (y 1).val; omega
theorem iblk3_eq (c : Dev nD) (t : Fin cfg0.N) : (iblk m c 3 t : S1x2408.Idx → EReal) = V m c main_v8 := by
  funext y
  show V m c main_v8 (((cfg0.win 3).blk t).view.emb y) = V m c main_v8 y
  refine congrArg (V m c main_v8) (funext fun a => Fin.ext ?_)
  obtain ⟨e0, e1⟩ := idxW3 t
  match a with
  | ⟨0, _⟩ => show win0_3.index t (0 : Fin 2) * 1 + 1 * (y 0).val = (y 0).val; omega
  | ⟨1, _⟩ => show win0_3.index t (1 : Fin 2) * 2408 + 1 * (y 1).val = (y 1).val; omega
theorem iblk4_eq (c : Dev nD) (t : Fin cfg0.N) : (iblk m c 4 t : S1x2408.Idx → EReal) = V m c main_v11 := by
  funext y
  show V m c main_v11 (((cfg0.win 4).blk t).view.emb y) = V m c main_v11 y
  refine congrArg (V m c main_v11) (funext fun a => Fin.ext ?_)
  obtain ⟨e0, e1⟩ := idxW4 t
  match a with
  | ⟨0, _⟩ => show win0_4.index t (0 : Fin 2) * 1 + 1 * (y 0).val = (y 0).val; omega
  | ⟨1, _⟩ => show win0_4.index t (1 : Fin 2) * 2408 + 1 * (y 1).val = (y 1).val; omega
theorem iblk5_eq (c : Dev nD) (t : Fin cfg0.N) : (iblk m c 5 t : S1024x2408.Idx → EReal) = V m c main_arg7 := by
  funext y
  show V m c main_arg7 (((cfg0.win 5).blk t).view.emb y) = V m c main_arg7 y
  refine congrArg (V m c main_arg7) (funext fun a => Fin.ext ?_)
  obtain ⟨e0, e1⟩ := idxW5 t
  match a with
  | ⟨0, _⟩ => show win0_5.index t (0 : Fin 2) * 1024 + 1 * (y 0).val = (y 0).val; omega
  | ⟨1, _⟩ => show win0_5.index t (1 : Fin 2) * 2408 + 1 * (y 1).val = (y 1).val; omega
theorem iblk6_eq (c : Dev nD) (t : Fin cfg0.N) : (iblk m c 6 t : S1x1024.Idx → EReal) = V m c main_v16 := by
  funext y
  show V m c main_v16 (((cfg0.win 6).blk t).view.emb y) = V m c main_v16 y
  refine congrArg (V m c main_v16) (funext fun a => Fin.ext ?_)
  obtain ⟨e0, e1⟩ := idxW6 t
  match a with
  | ⟨0, _⟩ => show win0_6.index t (0 : Fin 2) * 1 + 1 * (y 0).val = (y 0).val; omega
  | ⟨1, _⟩ => show win0_6.index t (1 : Fin 2) * 1024 + 1 * (y 1).val = (y 1).val; omega
theorem iblk7_eq (c : Dev nD) (t : Fin cfg0.N) : (iblk m c 7 t : S1x1024.Idx → EReal) = V m c main_v21 := by
  funext y
  show V m c main_v21 (((cfg0.win 7).blk t).view.emb y) = V m c main_v21 y
  refine congrArg (V m c main_v21) (funext fun a => Fin.ext ?_)
  obtain ⟨e0, e1⟩ := idxW7 t
  match a with
  | ⟨0, _⟩ => show win0_7.index t (0 : Fin 2) * 1 + 1 * (y 0).val = (y 0).val; omega
  | ⟨1, _⟩ => show win0_7.index t (1 : Fin 2) * 1024 + 1 * (y 1).val = (y 1).val; omega
theorem iblk8_eq (c : Dev nD) (t : Fin cfg0.N) : (iblk m c 8 t : S256x1024.Idx → EReal) = V m c main_v22 := by
  funext y
  show V m c main_v22 (((cfg0.win 8).blk t).view.emb y) = V m c main_v22 y
  refine congrArg (V m c main_v22) (funext fun a => Fin.ext ?_)
  obtain ⟨e0, e1⟩ := idxW8 t
  match a with
  | ⟨0, _⟩ => show win0_8.index t (0 : Fin 2) * 256 + 1 * (y 0).val = (y 0).val; omega
  | ⟨1, _⟩ => show win0_8.index t (1 : Fin 2) * 1024 + 1 * (y 1).val = (y 1).val; omega
theorem iblk9_eq (c : Dev nD) (t : Fin cfg0.N) : (iblk m c 9 t : S1x256.Idx → EReal) = V m c main_v24 := by
  funext y
  show V m c main_v24 (((cfg0.win 9).blk t).view.emb y) = V m c main_v24 y
  refine congrArg (V m c main_v24) (funext fun a => Fin.ext ?_)
  obtain ⟨e0, e1⟩ := idxW9 t
  match a with
  | ⟨0, _⟩ => show win0_9.index t (0 : Fin 2) * 1 + 1 * (y 0).val = (y 0).val; omega
  | ⟨1, _⟩ => show win0_9.index t (1 : Fin 2) * 256 + 1 * (y 1).val = (y 1).val; omega

/-! ## The whole 512 × 256 array -/

/-- The network's output for input row r in padded output column q, from the arrays as the region finds them. -/
def paddedAt (c : Dev nD) (r : Fin 512) (q : Fin 256) : EReal :=
  outRow (hid2Aff (hidAff twoW (rowAt (V m c main_arg0 : S512x875.Idx → EReal) r) (mat (V m c main_arg1 : S2408x875.Idx → EReal))
      (row0 (V m c main_v2 : S1x2408.Idx → EReal)) (row0 (V m c main_v8 : S1x2408.Idx → EReal)) (row0 (V m c main_v11 : S1x2408.Idx → EReal)))
    (mat (V m c main_arg7 : S1024x2408.Idx → EReal)) (row0 (V m c main_v16 : S1x1024.Idx → EReal)) (row0 (V m c main_v21 : S1x1024.Idx → EReal)))
    (mat (V m c main_v22 : S256x1024.Idx → EReal)) (row0 (V m c main_v24 : S1x256.Idx → EReal)) q

/-- … as an array. -/
def padded (c : Dev nD) : S512x256.Idx → EReal := fun i => paddedAt m c (i 0) (i 1)

/-- WHAT POINT t WRITES BACK is block t of that array. -/
theorem flushed_eq (c : Dev nD) (t : Fin cfg0.N) :
    (dats m 0 c).flushed 10 t = ((cfg0.win 10).blk t).view.read (Elt Ideal) (padded m c) := by
  show (cfg0.win 10).cut (grid0.coords t) ((dats m 0 c).after 10 t) = _
  rw [after0_10]
  unfold out0_10
  rw [View.canon_unit_zero hz]
  simp only [View.ld_unit_zero (S := S128x875) hz, View.ld_unit_zero (S := S2408x875) hz, View.ld_unit_zero (S := S1x2408) hz,
    View.ld_unit_zero (S := S1024x2408) hz, View.ld_unit_zero (S := S1x1024) hz, View.ld_unit_zero (S := S256x1024) hz,
    View.ld_unit_zero (S := S1x256) hz]
  funext j
  obtain ⟨p, q, rfl⟩ : ∃ (p : Fin 128) (q : Fin 256), j = ix2 p q := ⟨j 0, j 1, eq_ix2 j⟩
  have ht : t.val < 4 := lt_of_lt_of_eq t.isLt N_0
  obtain ⟨e0, e1⟩ := idxW10 t
  have hemb : (((cfg0.win 10).blk t).view.emb (ix2 p q) : S512x256.Idx) = ix2 (⟨128 * t.val + p.val, by omega⟩ : Fin 512) q := by
    funext a
    apply Fin.ext
    match a with
    | ⟨0, _⟩ => show win0_10.index t (0 : Fin 2) * 128 + 1 * p.val = 128 * t.val + p.val; omega
    | ⟨1, _⟩ => show win0_10.index t (1 : Fin 2) * 256 + 1 * q.val = q.val; omega
  show k0_pay1 (F := Ideal) (k0_pay2 (iblk m c 0 t) (iblk m c 1 t) (iblk m c 2 t) (iblk m c 3 t) (iblk m c 4 t) (iblk m c 5 t)
      (iblk m c 6 t)) (iblk m c 7 t) (iblk m c 8 t) (iblk m c 9 t) (ix2 p q) = padded m c (((cfg0.win 10).blk t).view.emb (ix2 p q))
  rw [hemb]
  refine (body_at (iblk m c 0 t) (iblk m c 1 t) (iblk m c 2 t) (iblk m c 3 t) (iblk m c 4 t) (iblk m c 5 t)
    (iblk m c 6 t) (iblk m c 7 t) (iblk m c 8 t) (iblk m c 9 t) p q).trans ?_
  rw [iblk0_row m c t p ⟨128 * t.val + p.val, by omega⟩ rfl, iblk1_eq, iblk2_eq, iblk3_eq, iblk4_eq, iblk5_eq, iblk6_eq,
    iblk7_eq, iblk8_eq, iblk9_eq]
  rfl

/-- An index of the array is in point t's block iff each coordinate is in the block's range on its axis. -/
theorem mem_blk (t : Fin cfg0.N) (i : S512x256.Idx) :
    i ∈ ((cfg0.win 10).blk t).view.set ↔ ∀ a : Fin 2, win0_10.index t a * S128x256.size a ≤ (i a).val
      ∧ (i a).val < win0_10.index t a * S128x256.size a + S128x256.size a := by
  show i ∈ ((View.whole main_v25).slice (win0_10.rect t)).set ↔ _
  rw [View.set_slice_whole, Rect.mem_set_unit]
  exact Iff.rfl

/-- The four points' blocks cover the array: row r is in the block of point r / 128. -/
theorem cover (i : S512x256.Idx) :
    ∃ t : Fin cfg0.N, (cfg0.win 10).flush t = true ∧ i ∈ ((cfg0.win 10).blk t).view.set := by
  have h0 : (i 0).val < 512 := (i 0).isLt
  have h1 : (i 1).val < 256 := (i 1).isLt
  have hN : cfg0.N = 4 := N_0
  refine ⟨⟨(i 0).val / 128, by rw [hN]; omega⟩, flush0_10 _, ?_⟩
  rw [mem_blk]
  obtain ⟨e0, e1⟩ := idxW10 ⟨(i 0).val / 128, by rw [hN]; omega⟩
  intro a
  match a with
  | ⟨0, _⟩ =>
    show win0_10.index ⟨(i 0).val / 128, _⟩ (0 : Fin 2) * 128 ≤ (i 0).val ∧ (i 0).val < win0_10.index ⟨(i 0).val / 128, _⟩ (0 : Fin 2) * 128 + 128
    rw [e0]
    show (i 0).val / 128 * 128 ≤ (i 0).val ∧ (i 0).val < (i 0).val / 128 * 128 + 128
    omega
  | ⟨1, _⟩ =>
    show win0_10.index ⟨(i 0).val / 128, _⟩ (1 : Fin 2) * 256 ≤ (i 1).val ∧ (i 1).val < win0_10.index ⟨(i 0).val / 128, _⟩ (1 : Fin 2) * 256 + 256
    rw [e1]
    omega

/-- So the region leaves the whole array. -/
theorem final (c : Dev nD) : (dats m 0 c).arrAt 10 cfg0.N = padded m c :=
  (dats m 0 c).arrAt_eq_of_cover 10 (padded m c) (fun t _ => flushed_eq m c t) cover

end Cert.Rbf

end
-- ==== Proof.KerHost.lean ====
/-
  What the region finds in the arrays the host prepared before it: the centres' squared norms, the two BatchNorm
  layers folded into a scale row and an offset row each, and the second weight matrix and bias padded with zero
  rows up to 256 outputs. Each is read at an entry in terms of the program's arguments.
-/
import proofs.«133424_j75797582840427_2_alg».proof.Proof.Gen.KernelIdeal.Frame
import proofs.«133424_j75797582840427_2_alg».proof.Proof.KerBlock
import Idealize.ShloMosaic.Lib.StableHlo.Run
import Idealize.ShloMosaic.Lib.KernelVsHost

noncomputable section

namespace Cert.Rbf

open Idealize.ShloMosaic Idealize.ShloMosaic.TcCoe Idealize.SL.Sem Idealize.ShloMosaic.StableHlo Idealize.ShloMosaic.ValueIdx
open Cert.KernelIdeal Cert.KernelIdeal.Gen

/-- A C-vector reshaped to 1 × C reads its entry l in column l. -/
theorem reshapeRow {C : Nat} (v : (⟨1, ![C]⟩ : Shape).Idx → EReal)
    (h : (⟨1, ![C]⟩ : Shape).ShapeCasts ⟨2, ![1, C]⟩) (l : Fin C) :
    row0 (shapeCast ⟨2, ![1, C]⟩ v h) l = vec v l := by
  refine shapeCast_apply v h (ix2 ⟨0, Nat.one_pos⟩ l) (ix1 l) ?_
  rw [Shape.rowMajor_val_one, Shape.rowMajor_val_two]
  show l.val = 0 * C + l.val
  omega

variable (m : (ℓ : Loc nD τ sig) → Buf (Elt Ideal) ℓ)

/-- The host's sum of squares along the centres' rows. -/
theorem centreSq (X : S2408x875.Idx → EReal) (l : Fin 2408) :
    Host.reduceAdd (F := Ideal) (mulf X X) (constant (F := Ideal) S_ .f32 0x00000000#32) reducesTo_S2408x875_S2408_d1 h_S_ (ix1 l)
      = sq (mat X l) := by
  simp only [Host.reduceAdd, Ideal.hostReduceAdd_def]
  rw [Ideal.hostReduceAdd_single reducesTo_S2408x875_S2408_d1 (by decide)]
  refine (congrArg (· + _) Ideal.ofBits_zero_f32).trans ((zero_add _).trans (Finset.sum_congr rfl fun k _ => ?_))
  have e : (Shape.Reduces.lift (s := S2408x875) (t := S2408) (a := 1) (by decide) (ix1 l) k) = ix2 l k := by
    funext a; apply Fin.ext
    match a with
    | ⟨0, _⟩ => rfl
    | ⟨1, _⟩ => rfl
  exact congrArg₂ (fun a b => X a * X b) e e

theorem V_c2 (c : Dev nD) (l : Fin 2408) :
    row0 (V m c main_v2 : S1x2408.Idx → EReal) l = sq (mat (m ((c : Thread nD τ).loc main_arg1)) l) := by
  have e : (V m c main_v2 : S1x2408.Idx → EReal) = shapeCast S1x2408 (Host.reduceAdd (F := Ideal)
      (mulf (m ((c : Thread nD τ).loc main_arg1)) (m ((c : Thread nD τ).loc main_arg1)))
      (constant (F := Ideal) S_ .f32 0x00000000#32) reducesTo_S2408x875_S2408_d1 h_S_) shapeCasts_S2408_S1x2408 := by
    dsimp only [V, V0]
    simp only [hostOps0, hostOps0_1, hostOps0_2, hostOps0_3, hostOps0_4, List.flatten_cons, List.flatten_nil,
      List.append_nil, List.cons_append, List.nil_append]
    after_results_simp
    rfl
  rw [e]
  exact (reshapeRow _ _ l).trans (centreSq _ l)

/-- Reads an array the host wrote before the region off the fold of the host operations. -/
macro "host_read" : tactic =>
  `(tactic| (dsimp only [V, V0]
             simp only [hostOps0, hostOps0_1, hostOps0_2, hostOps0_3, hostOps0_4, List.flatten_cons, List.flatten_nil,
               List.append_nil, List.cons_append, List.nil_append]
             after_results_simp
             rfl))

/-- The first layer's scale row: σ · γ · rsqrt(v + ε). -/
theorem V_s1 (c : Dev nD) (l : Fin 2408) :
    row0 (V m c main_v8 : S1x2408.Idx → EReal) l
      = vec (m ((c : Thread nD τ).loc main_arg2)) l * (vec (m ((c : Thread nD τ).loc main_arg3)) l
          * Ideal.rsqrt (vec (m ((c : Thread nD τ).loc main_arg6)) l + epsW)) := by
  have e : (V m c main_v8 : S1x2408.Idx → EReal) = shapeCast S1x2408
      (mulf (m ((c : Thread nD τ).loc main_arg2)) (mulf (m ((c : Thread nD τ).loc main_arg3))
        (Host.rsqrt (F := Ideal) (addf (m ((c : Thread nD τ).loc main_arg6))
          (broadcastInDim S2408 ![] bcast_S_S2408 (constant (F := Ideal) S_ .f32 0x3727C5AC#32))))))
      shapeCasts_S2408_S1x2408 := by host_read
  rw [e]
  exact reshapeRow _ _ l

/-- The first layer's offset row: β − μ · γ · rsqrt(v + ε). -/
theorem V_t1 (c : Dev nD) (l : Fin 2408) :
    row0 (V m c main_v11 : S1x2408.Idx → EReal) l
      = vec (m ((c : Thread nD τ).loc main_arg4)) l - vec (m ((c : Thread nD τ).loc main_arg5)) l
          * (vec (m ((c : Thread nD τ).loc main_arg3)) l * Ideal.rsqrt (vec (m ((c : Thread nD τ).loc main_arg6)) l + epsW)) := by
  have e : (V m c main_v11 : S1x2408.Idx → EReal) = shapeCast S1x2408
      (subf (m ((c : Thread nD τ).loc main_arg4)) (mulf (m ((c : Thread nD τ).loc main_arg5))
        (mulf (m ((c : Thread nD τ).loc main_arg3))
          (Host.rsqrt (F := Ideal) (addf (m ((c : Thread nD τ).loc main_arg6))
            (broadcastInDim S2408 ![] bcast_S_S2408 (constant (F := Ideal) S_ .f32 0x3727C5AC#32)))))))
      shapeCasts_S2408_S1x2408 := by host_read
  rw [e]
  exact reshapeRow _ _ l

/-- The second layer's scale row: γ · rsqrt(v + ε). -/
theorem V_s2 (c : Dev nD) (j : Fin 1024) :
    row0 (V m c main_v16 : S1x1024.Idx → EReal) j
      = vec (m ((c : Thread nD τ).loc main_arg9)) j * Ideal.rsqrt (vec (m ((c : Thread nD τ).loc main_arg12)) j + epsW) := by
  have e : (V m c main_v16 : S1x1024.Idx → EReal) = shapeCast S1x1024
      (mulf (m ((c : Thread nD τ).loc main_arg9))
        (Host.rsqrt (F := Ideal) (addf (m ((c : Thread nD τ).loc main_arg12))
          (broadcastInDim S1024 ![] bcast_S_S1024 (constant (F := Ideal) S_ .f32 0x3727C5AC#32)))))
      shapeCasts_S1024_S1x1024 := by host_read
  rw [e]
  exact reshapeRow _ _ j

/-- The second layer's offset row: (b · scale + β) − μ · scale. -/
theorem V_t2 (c : Dev nD) (j : Fin 1024) :
    row0 (V m c main_v21 : S1x1024.Idx → EReal) j
      = (vec (m ((c : Thread nD τ).loc main_arg8)) j * (vec (m ((c : Thread nD τ).loc main_arg9)) j
            * Ideal.rsqrt (vec (m ((c : Thread nD τ).loc main_arg12)) j + epsW))
          + vec (m ((c : Thread nD τ).loc main_arg10)) j)
        - vec (m ((c : Thread nD τ).loc main_arg11)) j * (vec (m ((c : Thread nD τ).loc main_arg9)) j
            * Ideal.rsqrt (vec (m ((c : Thread nD τ).loc main_arg12)) j + epsW)) := by
  have e : (V m c main_v21 : S1x1024.Idx → EReal) = shapeCast S1x1024
      (subf (addf (mulf (m ((c : Thread nD τ).loc main_arg8)) (mulf (m ((c : Thread nD τ).loc main_arg9))
          (Host.rsqrt (F := Ideal) (addf (m ((c : Thread nD τ).loc main_arg12))
            (broadcastInDim S1024 ![] bcast_S_S1024 (constant (F := Ideal) S_ .f32 0x3727C5AC#32))))))
          (m ((c : Thread nD τ).loc main_arg10)))
        (mulf (m ((c : Thread nD τ).loc main_arg11)) (mulf (m ((c : Thread nD τ).loc main_arg9))
          (Host.rsqrt (F := Ideal) (addf (m ((c : Thread nD τ).loc main_arg12))
            (broadcastInDim S1024 ![] bcast_S_S1024 (constant (F := Ideal) S_ .f32 0x3727C5AC#32)))))))
      shapeCasts_S1024_S1x1024 := by host_read
  rw [e]
  exact reshapeRow _ _ j

/-- The padded second weight matrix agrees with the weight matrix on its first 206 rows. -/
theorem V_w2 (c : Dev nD) (q : Fin 256) (hq : q.val < 206) (j : Fin 1024) :
    mat (V m c main_v22 : S256x1024.Idx → EReal) q j = mat (m ((c : Thread nD τ).loc main_arg13)) ⟨q.val, hq⟩ j := by
  have e : (V m c main_v22 : S256x1024.Idx → EReal) = pad S256x1024 ![0, 0] ![50, 0] ![0, 0]
      (m ((c : Thread nD τ).loc main_arg13)) (sitofp (F := Ideal) .f32 (constantI S_ 32 0#32))
      pads_S206x1024_S256x1024_0500_000 h_S_ := by host_read
  rw [e]
  refine pad_apply_of_inside _ _ _ _ _ _ _ (ix2 q j) (ix2 (⟨q.val, hq⟩ : Fin 206) j) fun a => ?_
  match a with
  | ⟨0, _⟩ => show q.val = 0 + q.val * (0 + 1); omega
  | ⟨1, _⟩ => show j.val = 0 + j.val * (0 + 1); omega

/-- The padded bias row agrees with the bias on its first 206 entries. -/
theorem V_b2 (c : Dev nD) (q : Fin 256) (hq : q.val < 206) :
    row0 (V m c main_v24 : S1x256.Idx → EReal) q = vec (m ((c : Thread nD τ).loc main_arg14)) ⟨q.val, hq⟩ := by
  have e : (V m c main_v24 : S1x256.Idx → EReal) = shapeCast S1x256 (pad S256 ![0] ![50] ![0]
      (m ((c : Thread nD τ).loc main_arg14)) (sitofp (F := Ideal) .f32 (constantI S_ 32 0#32))
      pads_S206_S256_0500 h_S_) shapeCasts_S256_S1x256 := by host_read
  rw [e]
  refine (reshapeRow _ _ q).trans ?_
  refine pad_apply_of_inside _ _ _ _ _ _ _ (ix1 q) (ix1 (⟨q.val, hq⟩ : Fin 206)) fun a => ?_
  match a with
  | ⟨0, _⟩ => show q.val = 0 + q.val * (0 + 1); omega

end Cert.Rbf

end
-- ==== Proof.RefRead.lean ====
/-
  The reference program, read at one entry of its result: row r of the input goes through the distances, the
  spelt-out BatchNorm + ReLU of the first layer, the first weight matrix and bias, the spelt-out BatchNorm + ReLU of
  the second layer, the second weight matrix and bias. Each stage of the reference's run is read at an index from
  the stage before; broadcasts of a vector along rows read the vector's entry in the column, the transposed weight
  matrices are read back at the swapped index.
-/
import proofs.«133424_j75797582840427_2_alg».proof.Proof.Gen.ReferenceIdeal.Read
import proofs.«133424_j75797582840427_2_alg».proof.Proof.Spec

noncomputable section

namespace Cert.Rbf.Ref

open Idealize.ShloMosaic Idealize.ShloMosaic.ValueIdx
open Cert.ReferenceIdeal Cert.ReferenceIdeal.Read Cert.Rbf

section
variable (x0 : S512x875.Idx → EReal) (x1 : S2408x875.Idx → EReal) (x2 x3 x4 x5 x6 : S2408.Idx → EReal)
  (x7 : S1024x2408.Idx → EReal) (x8 x9 x10 x11 x12 : S1024.Idx → EReal) (x13 : S206x1024.Idx → EReal)
  (x14 : S206.Idx → EReal)

/-! ## Vectors repeated down the rows -/

theorem v18_at (r : Fin 512) (c : Fin 2408) : val_main_v18 (F := Ideal) x2 (ix2 r c) = vec x2 c := by
  rw [val_main_v18_apply, val_main_v17_apply]
  exact congrArg x2 (funext fun a => Fin.ext (by match a with | ⟨0, _⟩ => rfl))
theorem v21_at (r : Fin 512) (c : Fin 2408) : val_main_v21 (F := Ideal) x5 (ix2 r c) = vec x5 c := by
  rw [val_main_v21_apply, val_main_v20_apply]
  exact congrArg x5 (funext fun a => Fin.ext (by match a with | ⟨0, _⟩ => rfl))
theorem v31_at (r : Fin 512) (c : Fin 2408) : val_main_v31 (F := Ideal) x4 (ix2 r c) = vec x4 c := by
  rw [val_main_v31_apply, val_main_v30_apply]
  exact congrArg x4 (funext fun a => Fin.ext (by match a with | ⟨0, _⟩ => rfl))
theorem v28_at (r : Fin 512) (c : Fin 2408) :
    val_main_v28 (F := Ideal) x3 x6 (ix2 r c) = Ideal.div (vec x3 c) (Ideal.sqrt (vec x6 c + epsW)) := by
  rw [val_main_v28_apply, val_main_v27_apply]
  have e : idx_main_v27 (idx_main_v28 (ix2 r c)) = ix1 c := funext fun a => Fin.ext (by match a with | ⟨0, _⟩ => rfl)
  rw [e]
  rfl
theorem v37_at (r : Fin 512) (j : Fin 1024) : val_main_v37 (F := Ideal) x8 (ix2 r j) = vec x8 j := by
  rw [val_main_v37_apply, val_main_v36_apply]
  exact congrArg x8 (funext fun a => Fin.ext (by match a with | ⟨0, _⟩ => rfl))
theorem v40_at (r : Fin 512) (j : Fin 1024) : val_main_v40 (F := Ideal) x11 (ix2 r j) = vec x11 j := by
  rw [val_main_v40_apply, val_main_v39_apply]
  exact congrArg x11 (funext fun a => Fin.ext (by match a with | ⟨0, _⟩ => rfl))
theorem v50_at (r : Fin 512) (j : Fin 1024) : val_main_v50 (F := Ideal) x10 (ix2 r j) = vec x10 j := by
  rw [val_main_v50_apply, val_main_v49_apply]
  exact congrArg x10 (funext fun a => Fin.ext (by match a with | ⟨0, _⟩ => rfl))
theorem v47_at (r : Fin 512) (j : Fin 1024) :
    val_main_v47 (F := Ideal) x9 x12 (ix2 r j) = Ideal.div (vec x9 j) (Ideal.sqrt (vec x12 j + epsW)) := by
  rw [val_main_v47_apply, val_main_v46_apply]
  have e : idx_main_v46 (idx_main_v47 (ix2 r j)) = ix1 j := funext fun a => Fin.ext (by match a with | ⟨0, _⟩ => rfl)
  rw [e]
  rfl
theorem v56_at (r : Fin 512) (o : Fin 206) : val_main_v56 (F := Ideal) x14 (ix2 r o) = vec x14 o := by
  rw [val_main_v56_apply, val_main_v55_apply]
  exact congrArg x14 (funext fun a => Fin.ext (by match a with | ⟨0, _⟩ => rfl))

/-! ## The distances -/

theorem v6_at (r : Fin 512) (c : Fin 2408) : val_main_v6 (F := Ideal) x0 (ix2 r c) = sq (rowAt x0 r) := by
  rw [val_main_v6_apply, val_main_v2_apply, val_main_v1_apply]
  refine (congrArg (· + _) Ideal.ofBits_zero_f32).trans ((zero_add _).trans (Finset.sum_congr rfl fun k _ => ?_))
  have e : idx_main_v1 (idx_main_v2 (idx_main_v6 (ix2 r c))) k = ix2 r k :=
    funext fun a => Fin.ext (by match a with | ⟨0, _⟩ => rfl | ⟨1, _⟩ => rfl)
  rw [e]
  rfl

theorem v7_at (r : Fin 512) (c : Fin 2408) : val_main_v7 (F := Ideal) x1 (ix2 r c) = sq (mat x1 c) := by
  rw [val_main_v7_apply, val_main_v5_apply, val_main_v4_apply]
  refine (congrArg (· + _) Ideal.ofBits_zero_f32).trans ((zero_add _).trans (Finset.sum_congr rfl fun k _ => ?_))
  have e : idx_main_v4 (idx_main_v5 (idx_main_v7 (ix2 r c))) k = ix2 c k :=
    funext fun a => Fin.ext (by match a with | ⟨0, _⟩ => rfl | ⟨1, _⟩ => rfl)
  rw [e]
  rfl

theorem v10_at (r : Fin 512) (c : Fin 2408) :
    val_main_v10 (F := Ideal) x0 x1 (ix2 r c) = ∑ k : Fin 875, rowAt x0 r k * mat x1 c k := by
  rw [val_main_v10_apply]
  refine Finset.sum_congr rfl fun k _ => ?_
  rw [val_main_v9_apply]
  have el : lidx_main_v10 (ix2 r c) k = ix2 r k :=
    funext fun a => Fin.ext (by match a with | ⟨0, _⟩ => rfl | ⟨1, _⟩ => rfl)
  have er : idx_main_v9 (ridx_main_v10 (ix2 r c) k) = ix2 c k :=
    funext fun a => Fin.ext (by match a with | ⟨0, _⟩ => rfl | ⟨1, _⟩ => rfl)
  rw [el, er]
  rfl

theorem dist_at (r : Fin 512) (c : Fin 2408) :
    val_main_v16 (F := Ideal) x0 x1 (ix2 r c) = dist twoW (rowAt x0 r) (mat x1 c) := by
  unfold dist
  refine congrArg Ideal.sqrt (congrArg₂ max (congrArg₂ (· - ·) (congrArg₂ (· + ·) (v6_at x0 r c) (v7_at x1 r c))
    (congrArg₂ (· * ·) rfl (v10_at x0 x1 r c))) Ideal.ofBits_zero_f32)

/-! ## The two hidden rows and the output -/

theorem hid_at (r : Fin 512) (c : Fin 2408) :
    val_main_v33 (F := Ideal) x0 x1 x2 x3 x4 x5 x6 (ix2 r c)
      = hidPlain twoW epsW (rowAt x0 r) (mat x1) (vec x2) (vec x3) (vec x4) (vec x5) (vec x6) c := by
  unfold hidPlain
  refine congrArg₂ max (congrArg₂ (· + ·) (congrArg₂ (· * ·) (congrArg₂ (· - ·)
    (congrArg₂ (· * ·) (dist_at x0 x1 r c) (v18_at x2 r c)) (v21_at x5 r c)) (v28_at x3 x6 r c)) (v31_at x4 r c))
    Ideal.ofBits_zero_f32

theorem v35_at (r : Fin 512) (j : Fin 1024) :
    val_main_v35 (F := Ideal) x0 x1 x2 x3 x4 x5 x6 x7 (ix2 r j)
      = ∑ c : Fin 2408, hidPlain twoW epsW (rowAt x0 r) (mat x1) (vec x2) (vec x3) (vec x4) (vec x5) (vec x6) c * mat x7 j c := by
  rw [val_main_v35_apply]
  refine Finset.sum_congr rfl fun c _ => ?_
  rw [val_main_v34_apply]
  have el : lidx_main_v35 (ix2 r j) c = ix2 r c :=
    funext fun a => Fin.ext (by match a with | ⟨0, _⟩ => rfl | ⟨1, _⟩ => rfl)
  have er : idx_main_v34 (ridx_main_v35 (ix2 r j) c) = ix2 j c :=
    funext fun a => Fin.ext (by match a with | ⟨0, _⟩ => rfl | ⟨1, _⟩ => rfl)
  rw [el, er, hid_at]
  rfl

theorem hid2_at (r : Fin 512) (j : Fin 1024) :
    val_main_v52 (F := Ideal) x0 x1 x2 x3 x4 x5 x6 x7 x8 x9 x10 x11 x12 (ix2 r j)
      = hid2Plain epsW (hidPlain twoW epsW (rowAt x0 r) (mat x1) (vec x2) (vec x3) (vec x4) (vec x5) (vec x6))
          (mat x7) (vec x8) (vec x9) (vec x10) (vec x11) (vec x12) j := by
  unfold hid2Plain
  refine congrArg₂ max (congrArg₂ (· + ·) (congrArg₂ (· * ·) (congrArg₂ (· - ·)
    (congrArg₂ (· + ·) (v35_at x0 x1 x2 x3 x4 x5 x6 x7 r j) (v37_at x8 r j)) (v40_at x11 r j)) (v47_at x9 x12 r j))
    (v50_at x10 r j)) Ideal.ofBits_zero_f32

/-- The reference's result at entry (r, o). -/
theorem out_at (r : Fin 512) (o : Fin 206) :
    val_main_v57 (F := Ideal) x0 x1 x2 x3 x4 x5 x6 x7 x8 x9 x10 x11 x12 x13 x14 (ix2 r o)
      = outRow (hid2Plain epsW (hidPlain twoW epsW (rowAt x0 r) (mat x1) (vec x2) (vec x3) (vec x4) (vec x5) (vec x6))
          (mat x7) (vec x8) (vec x9) (vec x10) (vec x11) (vec x12)) (mat x13) (vec x14) o := by
  unfold outRow
  refine congrArg₂ (· + ·) ?_ (v56_at x14 r o)
  rw [val_main_v54_apply]
  refine Finset.sum_congr rfl fun j _ => ?_
  rw [val_main_v53_apply]
  have el : lidx_main_v54 (ix2 r o) j = ix2 r j :=
    funext fun a => Fin.ext (by match a with | ⟨0, _⟩ => rfl | ⟨1, _⟩ => rfl)
  have er : idx_main_v53 (ridx_main_v54 (ix2 r o) j) = ix2 o j :=
    funext fun a => Fin.ext (by match a with | ⟨0, _⟩ => rfl | ⟨1, _⟩ => rfl)
  rw [el, er, hid2_at]
  rfl

end

end Cert.Rbf.Ref

end
-- ==== Proof.KerRun.lean ====
/-
  The kernel program's result, and why it is the reference's.

  After the region the host keeps columns [0, 206) of the 512 × 256 array. Entry (r, o) of the result is therefore the
  network's output for input row r and output column o with the folded scale and offset rows; the padded rows of
  the second weight matrix and the padded bias entries are never read. With every argument entry real and both
  variance vectors nonnegative the folded rows give the same hidden rows as BatchNorm spelt out, which is what the
  reference computes.
-/
import proofs.«133424_j75797582840427_2_alg».proof.Proof.KerValue
import proofs.«133424_j75797582840427_2_alg».proof.Proof.KerHost
import proofs.«133424_j75797582840427_2_alg».proof.Proof.RefRead

set_option maxRecDepth 16384

noncomputable section

namespace Cert.Rbf

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The kernel program's result array. -/
def result (c : Dev nD) : S512x206.Idx → EReal :=
  extractStridedSlice S512x206 ![0, 0] (padded m c) slices_S512x256_S512x206_0_0

/-- The host's slice after the region reads the array the region left. -/
theorem tail_eq (c : Dev nD) :
    Pipeline.afterTail₀ cfgs (dats m) 0 (V0 m) [hostOps1] c main_v26 = result m c := by
  unfold Pipeline.afterTail₀
  show StableHlo.after hostOps1 _ (Proc.devRef .tc main_v26) = _
  after_results
  unfold result
  refine congrArg (fun X : S512x256.Idx → EReal => extractStridedSlice S512x206 ![0, 0] X slices_S512x256_S512x206_0_0) ?_
  exact (Pipeline.withArrays_arr spec0 launch0.win.arr_inj c _ _ 10).trans (final m c)

/-- The reference's function of the arguments, entry by entry. -/
def spec (x0 : S512x875.Idx → EReal) (x1 : S2408x875.Idx → EReal) (x2 x3 x4 x5 x6 : S2408.Idx → EReal)
    (x7 : S1024x2408.Idx → EReal) (x8 x9 x10 x11 x12 : S1024.Idx → EReal) (x13 : S206x1024.Idx → EReal)
    (x14 : S206.Idx → EReal) (r : Fin 512) (o : Fin 206) : EReal :=
  outRow (hid2Plain epsW (hidPlain twoW epsW (rowAt x0 r) (mat x1) (vec x2) (vec x3) (vec x4) (vec x5) (vec x6))
    (mat x7) (vec x8) (vec x9) (vec x10) (vec x11) (vec x12)) (mat x13) (vec x14) o

/-- Entry (r, q) of the array the region leaves, for a column q the host keeps. -/
theorem paddedAt_eq (c : Dev nD)
    (h0 : ∀ i, IsReal ((m ((c : Thread nD τ).loc main_arg0) : S512x875.Idx → EReal) i))
    (h1 : ∀ i, IsReal ((m ((c : Thread nD τ).loc main_arg1) : S2408x875.Idx → EReal) i))
    (h2 : ∀ i, IsReal ((m ((c : Thread nD τ).loc main_arg2) : S2408.Idx → EReal) i))
    (h3 : ∀ i, IsReal ((m ((c : Thread nD τ).loc main_arg3) : S2408.Idx → EReal) i))
    (h4 : ∀ i, IsReal ((m ((c : Thread nD τ).loc main_arg4) : S2408.Idx → EReal) i))
    (h5 : ∀ i, IsReal ((m ((c : Thread nD τ).loc main_arg5) : S2408.Idx → EReal) i))
    (h6 : ∀ i, IsReal ((m ((c : Thread nD τ).loc main_arg6) : S2408.Idx → EReal) i))
    (h7 : ∀ i, IsReal ((m ((c : Thread nD τ).loc main_arg7) : S1024x2408.Idx → EReal) i))
    (h8 : ∀ i, IsReal ((m ((c : Thread nD τ).loc main_arg8) : S1024.Idx → EReal) i))
    (h9 : ∀ i, IsReal ((m ((c : Thread nD τ).loc main_arg9) : S1024.Idx → EReal) i))
    (h10 : ∀ i, IsReal ((m ((c : Thread nD τ).loc main_arg10) : S1024.Idx → EReal) i))
    (h11 : ∀ i, IsReal ((m ((c : Thread nD τ).loc main_arg11) : S1024.Idx → EReal) i))
    (h12 : ∀ i, IsReal ((m ((c : Thread nD τ).loc main_arg12) : S1024.Idx → EReal) i))
    (hv6 : ∀ i, (0 : EReal) ≤ (m ((c : Thread nD τ).loc main_arg6) : S2408.Idx → EReal) i)
    (hv12 : ∀ i, (0 : EReal) ≤ (m ((c : Thread nD τ).loc main_arg12) : S1024.Idx → EReal) i)
    (r : Fin 512) (q : Fin 256) (hq : q.val < 206) :
    paddedAt m c r q = spec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) r ⟨q.val, hq⟩ := by
  unfold paddedAt spec
  -- the first hidden row
  have e1 : hidAff twoW (rowAt (V m c main_arg0 : S512x875.Idx → EReal) r) (mat (V m c main_arg1 : S2408x875.Idx → EReal))
        (row0 (V m c main_v2 : S1x2408.Idx → EReal)) (row0 (V m c main_v8 : S1x2408.Idx → EReal)) (row0 (V m c main_v11 : S1x2408.Idx → EReal))
      = hidPlain twoW epsW (rowAt (m ((c : Thread nD τ).loc main_arg0)) r) (mat (m ((c : Thread nD τ).loc main_arg1)))
          (vec (m ((c : Thread nD τ).loc main_arg2))) (vec (m ((c : Thread nD τ).loc main_arg3))) (vec (m ((c : Thread nD τ).loc main_arg4)))
          (vec (m ((c : Thread nD τ).loc main_arg5))) (vec (m ((c : Thread nD τ).loc main_arg6))) := by
    funext cc
    rw [show (V m c main_arg0 : S512x875.Idx → EReal) = m ((c : Thread nD τ).loc main_arg0) from V_main_arg0 m c,
      show (V m c main_arg1 : S2408x875.Idx → EReal) = m ((c : Thread nD τ).loc main_arg1) from V_main_arg1 m c,
      show row0 (V m c main_v2 : S1x2408.Idx → EReal) = _ from funext (V_c2 m c),
      show row0 (V m c main_v8 : S1x2408.Idx → EReal) = _ from funext (V_s1 m c),
      show row0 (V m c main_v11 : S1x2408.Idx → EReal) = _ from funext (V_t1 m c)]
    exact hidAff_fold two_real eps_pos (fun k => h0 _) (fun a k => h1 _) (fun a => h2 _) (fun a => h3 _) (fun a => h4 _)
      (fun a => h5 _) (fun a => h6 _) (fun a => hv6 _) cc
  -- the second hidden row
  have e2 : hid2Aff (hidPlain twoW epsW (rowAt (m ((c : Thread nD τ).loc main_arg0)) r) (mat (m ((c : Thread nD τ).loc main_arg1)))
          (vec (m ((c : Thread nD τ).loc main_arg2))) (vec (m ((c : Thread nD τ).loc main_arg3))) (vec (m ((c : Thread nD τ).loc main_arg4)))
          (vec (m ((c : Thread nD τ).loc main_arg5))) (vec (m ((c : Thread nD τ).loc main_arg6))))
        (mat (V m c main_arg7 : S1024x2408.Idx → EReal)) (row0 (V m c main_v16 : S1x1024.Idx → EReal)) (row0 (V m c main_v21 : S1x1024.Idx → EReal))
      = hid2Plain epsW (hidPlain twoW epsW (rowAt (m ((c : Thread nD τ).loc main_arg0)) r) (mat (m ((c : Thread nD τ).loc main_arg1)))
          (vec (m ((c : Thread nD τ).loc main_arg2))) (vec (m ((c : Thread nD τ).loc main_arg3))) (vec (m ((c : Thread nD τ).loc main_arg4)))
          (vec (m ((c : Thread nD τ).loc main_arg5))) (vec (m ((c : Thread nD τ).loc main_arg6))))
          (mat (m ((c : Thread nD τ).loc main_arg7))) (vec (m ((c : Thread nD τ).loc main_arg8))) (vec (m ((c : Thread nD τ).loc main_arg9)))
          (vec (m ((c : Thread nD τ).loc main_arg10))) (vec (m ((c : Thread nD τ).loc main_arg11))) (vec (m ((c : Thread nD τ).loc main_arg12))) := by
    funext j
    rw [show (V m c main_arg7 : S1024x2408.Idx → EReal) = m ((c : Thread nD τ).loc main_arg7) from V_main_arg7 m c,
      show row0 (V m c main_v16 : S1x1024.Idx → EReal) = _ from funext (V_s2 m c),
      show row0 (V m c main_v21 : S1x1024.Idx → EReal) = _ from funext (V_t2 m c)]
    exact hid2Aff_fold eps_pos
      (isReal_hidPlain two_real eps_pos (fun k => h0 _) (fun a k => h1 _) (fun a => h2 _) (fun a => h3 _) (fun a => h4 _)
        (fun a => h5 _) (fun a => h6 _) (fun a => hv6 _))
      (fun a b => h7 _) (fun a => h8 _) (fun a => h9 _) (fun a => h10 _) (fun a => h11 _) (fun a => h12 _) (fun a => hv12 _) j
  rw [e1, e2]
  unfold outRow
  refine congrArg₂ (· + ·) (Finset.sum_congr rfl fun j _ => congrArg₂ (· * ·) rfl (V_w2 m c q hq j)) (V_b2 m c q hq)

/-- The kernel program's result is the reference's function of the arguments. -/
theorem result_at (c : Dev nD)
    (h0 : ∀ i, IsReal ((m ((c : Thread nD τ).loc main_arg0) : S512x875.Idx → EReal) i))
    (h1 : ∀ i, IsReal ((m ((c : Thread nD τ).loc main_arg1) : S2408x875.Idx → EReal) i))
    (h2 : ∀ i, IsReal ((m ((c : Thread nD τ).loc main_arg2) : S2408.Idx → EReal) i))
    (h3 : ∀ i, IsReal ((m ((c : Thread nD τ).loc main_arg3) : S2408.Idx → EReal) i))
    (h4 : ∀ i, IsReal ((m ((c : Thread nD τ).loc main_arg4) : S2408.Idx → EReal) i))
    (h5 : ∀ i, IsReal ((m ((c : Thread nD τ).loc main_arg5) : S2408.Idx → EReal) i))
    (h6 : ∀ i, IsReal ((m ((c : Thread nD τ).loc main_arg6) : S2408.Idx → EReal) i))
    (h7 : ∀ i, IsReal ((m ((c : Thread nD τ).loc main_arg7) : S1024x2408.Idx → EReal) i))
    (h8 : ∀ i, IsReal ((m ((c : Thread nD τ).loc main_arg8) : S1024.Idx → EReal) i))
    (h9 : ∀ i, IsReal ((m ((c : Thread nD τ).loc main_arg9) : S1024.Idx → EReal) i))
    (h10 : ∀ i, IsReal ((m ((c : Thread nD τ).loc main_arg10) : S1024.Idx → EReal) i))
    (h11 : ∀ i, IsReal ((m ((c : Thread nD τ).loc main_arg11) : S1024.Idx → EReal) i))
    (h12 : ∀ i, IsReal ((m ((c : Thread nD τ).loc main_arg12) : S1024.Idx → EReal) i))
    (hv6 : ∀ i, (0 : EReal) ≤ (m ((c : Thread nD τ).loc main_arg6) : S2408.Idx → EReal) i)
    (hv12 : ∀ i, (0 : EReal) ≤ (m ((c : Thread nD τ).loc main_arg12) : S1024.Idx → EReal) i) :
    result m c = Cert.ReferenceIdeal.Read.val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  funext i
  obtain ⟨r, o, rfl⟩ : ∃ (r : Fin 512) (o : Fin 206), i = ix2 r o := ⟨i 0, i 1, eq_ix2 i⟩
  have ho : o.val < 256 := by have := o.isLt; omega
  rw [Ref.out_at]
  unfold result
  refine (extractStridedSlice_apply _ _ _ (ix2 r o) (ix2 r (⟨o.val, ho⟩ : Fin 256)) fun a => ?_).trans ?_
  · match a with
    | ⟨0, _⟩ => show r.val = 0 + r.val; omega
    | ⟨1, _⟩ => show o.val = 0 + o.val; omega
  · exact paddedAt_eq m c h0 h1 h2 h3 h4 h5 h6 h7 h8 h9 h10 h11 h12 hv6 hv12 r ⟨o.val, ho⟩ o.isLt

/-- The kernel program's run, read: the result array at `result`, the arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).2 main_v26 (Pipeline.mem_restRefs_of main_v26 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩)
    (run_main m ρ)

end Cert.Rbf

end
-- ==== Proof.lean ====
/-
  An RBF layer followed by two BatchNorm + ReLU + linear layers, computed row block by row block in one kernel
  against the plain array program.

  The kernel's host side folds each BatchNorm into a scale row γ·rsqrt(v + ε) (times σ for the first layer) and an
  offset row (β − μ·scale, and (b·scale + β) − μ·scale for the second, which also absorbs the first linear layer's
  bias), computes the centres' squared norms once, and pads the second linear layer to 256 outputs; each of the
  four grid points then maps 128 input rows to 128 output rows; the host keeps the first 206 columns. The reference
  subtracts the mean, multiplies by γ / sqrt(v + ε) and adds the shift. On the extended reals the two agree where
  every argument entry is a real number and both variance vectors are nonnegative (ε > 0 then keeps sqrt and
  rsqrt on their positive branch and γ·rsqrt(v + ε) = γ / sqrt(v + ε) is a real): the two affine forms are equal by
  the field laws, entry by entry of each hidden row. The three frames are the programs' runs with the result
  dropped; the kernel read on the extended reals is the kernel's own text, so nothing is owed between the two.
-/
import proofs.«133424_j75797582840427_2_alg».proof.Defs
import proofs.«133424_j75797582840427_2_alg».proof.Proof.Gen.Kernel
import proofs.«133424_j75797582840427_2_alg».proof.Proof.Gen.Kernel.Skeleton
import proofs.«133424_j75797582840427_2_alg».proof.Proof.Gen.Kernel.Launch
import proofs.«133424_j75797582840427_2_alg».proof.Proof.Gen.Kernel.Points
import proofs.«133424_j75797582840427_2_alg».proof.Proof.Gen.Kernel.Frame
import proofs.«133424_j75797582840427_2_alg».proof.Proof.Gen.KernelIdeal
import proofs.«133424_j75797582840427_2_alg».proof.Proof.Gen.KernelIdeal.Skeleton
import proofs.«133424_j75797582840427_2_alg».proof.Proof.Gen.KernelIdeal.Launch
import proofs.«133424_j75797582840427_2_alg».proof.Proof.Gen.KernelIdeal.Points
import proofs.«133424_j75797582840427_2_alg».proof.Proof.Gen.KernelIdeal.Frame
import proofs.«133424_j75797582840427_2_alg».proof.Proof.Gen.ReferenceIdeal
import proofs.«133424_j75797582840427_2_alg».proof.Proof.Gen.Pre_finite_inputs
import proofs.«133424_j75797582840427_2_alg».proof.Proof.Gen.ReferenceIdeal.Run
import proofs.«133424_j75797582840427_2_alg».proof.Proof.Gen.ReferenceIdeal.Read
import proofs.«133424_j75797582840427_2_alg».proof.Proof.Finite
import proofs.«133424_j75797582840427_2_alg».proof.Proof.KerRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at one function of the arguments: the kernel program's is read off its
    frame run block by block, the reference's off its run stage by stage, and under the precondition the folded and
    the spelt-out BatchNorm layers are equal entry by entry. -/
theorem algebraic : Cert.algebraic_KernelIdeal_ReferenceIdeal := by
  intro m ρ m' ρ' hpre hagree
  refine ⟨fun c => Cert.Rbf.result m c, Cert.Rbf.run m ρ, ?_⟩
  refine (θ_run Cert.ReferenceIdeal.defs _ _).mono (fun _ h c => ⟨(h c).1.trans ?_, (h c).2⟩)
    (Cert.ReferenceIdeal.Value.run (F := Ideal) m' ρ')
  show _ = Cert.Rbf.result m c
  obtain ⟨h0, h1, h2, h3, h4, h5, h6, h7, h8, h9, h10, h11, h12, hv6, hv12⟩ :=
    Cert.Rbf.pre_decode _ _ _ _ _ _ _ _ _ _ _ _ _ _ _ (hpre c)
  obtain ⟨a0, a1, a2, a3, a4, a5, a6, a7, a8, a9, a10, a11, a12, a13, a14⟩ := hagree c
  rw [Cert.Rbf.result_at m c h0 h1 h2 h3 h4 h5 h6 h7 h8 h9 h10 h11 h12 hv6 hv12,
    a0, a1, a2, a3, a4, a5, a6, a7, a8, a9, a10, a11, a12, a13, a14]
  exact Cert.ReferenceIdeal.Read.val_main_v57_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
